-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x16 : Shape := ⟨2, ![100000, 16]⟩
abbrev S5000x16 : Shape := ⟨2, ![5000, 16]⟩
abbrev S1700000x16 : Shape := ⟨2, ![1700000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x16, .f32⟩
  | .hbm, ⟨68, _⟩ => ⟨S1700000x1, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x16, .f32⟩
  | .hbm, ⟨78, _⟩ => ⟨S1700000x16, .f32⟩
  | .hbm, ⟨79, _⟩ => ⟨S1700000x16, .f32⟩
  | .hbm, ⟨80, _⟩ => ⟨S_, .f32⟩
  | .hbm, ⟨81, _⟩ => ⟨S100000x16, .f32⟩
  | .hbm, ⟨82, _⟩ => ⟨S1700000x1, .i32⟩
  | .hbm, ⟨83, _⟩ => ⟨S100000x16, .f32⟩
  | .hbm, ⟨84, _⟩ => ⟨S1x16, .f32⟩
  | .hbm, ⟨85, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x16_S5000x16_1_0_0_1_n_n_wf : DotDims.WF S5000x64 S64x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x16, .f32⟩
  | .hbm, ⟨73, _⟩ => ⟨S1700000x1, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x16, .f32⟩
  | .hbm, ⟨83, _⟩ => ⟨S1700000x16, .f32⟩
  | .hbm, ⟨84, _⟩ => ⟨S1700000x16, .f32⟩
  | .hbm, ⟨85, _⟩ => ⟨S_, .f32⟩
  | .hbm, ⟨86, _⟩ => ⟨S100000x16, .f32⟩
  | .hbm, ⟨87, _⟩ => ⟨S1700000x1, .i32⟩
  | .hbm, ⟨88, _⟩ => ⟨S100000x16, .f32⟩
  | .hbm, ⟨89, _⟩ => ⟨S1x16, .f32⟩
  | .hbm, ⟨90, _⟩ => ⟨S100000x16, .f32⟩
  | .hbm, ⟨91, _⟩ => ⟨S100000x16, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x16, .f32⟩
  | .hbm, ⟨99, _⟩ => ⟨S100000x16, .f32⟩
  | .hbm, ⟨100, _⟩ => ⟨S100000x16, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x16, .f32⟩
  | .hbm, ⟨106, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The idealized kernel's run with its result named. The program is eight segments — three stretches of host
  operations, the first product kernel, a stretch, the second product kernel, a stretch, the log-softmax kernel —
  and the contents of every buffer at each boundary are a fold through them from the launch memory. Every weakly
  fair execution terminates, and at the end every buffer the program does not scope holds the last boundary's
  contents: in particular the result buffer holds what the last region's write-backs left, and the six arguments
  hold what they were launched with.
-/
import proofs.«133466_j38938173505764_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Named

end
-- ==== Proof.KernelGraph.lean ====
/-
  The sparse half of a graph convolution, as the host operations spell it: the edge list with a self loop appended
  for every node (`rows` the sources, `cols` the targets), the symmetric normalization of an edge (the product of the
  inverse square roots of its end points' degrees, zero where a degree is not positive: `norm`), and the propagation of a
  feature matrix along the edges (`spread64`, `spread16`: gather each edge's source row, scale it by the edge's
  normalization, add it into the target's row). The terms are the program's own operations, composed.
-/
import proofs.«133466_j38938173505764_1_alg».proof.Proof.Gen.KernelIdeal

noncomputable section

namespace Cert.KernelIdeal.Graph

open Cert.KernelIdeal Cert.KernelIdeal.Gen Idealize.ShloMosaic

variable {F : FTy → Type} [FloatOps F]

/-- The sources: the edge list's first row, then every node once. -/
def rows (e : IVec S2x1600000 32) : IVec S1700000 32 :=
  (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)

/-- The targets: the edge list's second row, then every node once. -/
def cols (e : IVec S2x1600000 32) : IVec S1700000 32 :=
  (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)

/-- The edges' normalization from the sources `r` and targets `c`. -/
def norm (r c : IVec S1700000 32) : FVec F S1700000 .f32 :=
  (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 c) (broadcastInDim S1700000 ![] bcast_S_S1700000 (constant S_ .f32 0x3F800000#32))) (broadcastInDim S100000 ![] bcast_S_S100000 (constant S_ .f32 0x00000000#32))) (Host.divf (broadcastInDim S100000 ![] bcast_S_S100000 (constant S_ .f32 0x3F800000#32)) (Host.sqrt (Host.scatterAdd scatter_S100000_S1700000x1_S1700000_n_0_0_1 (broadcastInDim S100000 ![] bcast_S_S100000 (constant S_ .f32 0x00000000#32)) (broadcastInDim S1700000x1 ![0] bcast_S1700000_S1700000x1_0 c) (broadcastInDim S1700000 ![] bcast_S_S1700000 (constant S_ .f32 0x3F800000#32))))) (broadcastInDim S100000 ![] bcast_S_S100000 (id (constant S_ .f32 0x00000000#32)))) (broadcastInDim S1700000x1 ![0] bcast_S1700000_S1700000x1_0 (select (cmpi .slt r (broadcastInDim S1700000 ![] bcast_S_S1700000 (constantI S_ 32 0#32))) (addi r (broadcastInDim S1700000 ![] bcast_S_S1700000 (constantI S_ 32 100000#32))) r))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 c) (broadcastInDim S1700000 ![] bcast_S_S1700000 (constant S_ .f32 0x3F800000#32))) (broadcastInDim S100000 ![] bcast_S_S100000 (constant S_ .f32 0x00000000#32))) (Host.divf (broadcastInDim S100000 ![] bcast_S_S100000 (constant S_ .f32 0x3F800000#32)) (Host.sqrt (Host.scatterAdd scatter_S100000_S1700000x1_S1700000_n_0_0_1 (broadcastInDim S100000 ![] bcast_S_S100000 (constant S_ .f32 0x00000000#32)) (broadcastInDim S1700000x1 ![0] bcast_S1700000_S1700000x1_0 c) (broadcastInDim S1700000 ![] bcast_S_S1700000 (constant S_ .f32 0x3F800000#32))))) (broadcastInDim S100000 ![] bcast_S_S100000 (id (constant S_ .f32 0x00000000#32)))) (broadcastInDim S1700000x1 ![0] bcast_S1700000_S1700000x1_0 (select (cmpi .slt c (broadcastInDim S1700000 ![] bcast_S_S1700000 (constantI S_ 32 0#32))) (addi c (broadcastInDim S1700000 ![] bcast_S_S1700000 (constantI S_ 32 100000#32))) c))))

/-- A [100000, 64] matrix propagated along the edges. -/
def spread64 (r c : IVec S1700000 32) (n : FVec F S1700000 .f32) (xw : FVec F S100000x64 .f32) : FVec F S100000x64 .f32 :=
  (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 c) (mulf (broadcastInDim S1700000x64 ![0, 1] bcast_S1700000x1_S1700000x64_0_1 (broadcastInDim S1700000x1 ![0] bcast_S1700000_S1700000x1_0 n)) (Host.gather gather_S100000x64_S1700000x1_S1700000x64_1_0_n_n_0_1_164 xw (broadcastInDim S1700000x1 ![0] bcast_S1700000_S1700000x1_0 (select (cmpi .slt r (broadcastInDim S1700000 ![] bcast_S_S1700000 (constantI S_ 32 0#32))) (addi r (broadcastInDim S1700000 ![] bcast_S_S1700000 (constantI S_ 32 100000#32))) r)))))

/-- A [100000, 16] matrix propagated along the edges. -/
def spread16 (r c : IVec S1700000 32) (n : FVec F S1700000 .f32) (xw : FVec F S100000x16 .f32) : FVec F S100000x16 .f32 :=
  (Host.scatterAdd scatter_S100000x16_S1700000x1_S1700000x16_1_0_0_1 (broadcastInDim S100000x16 ![] bcast_S_S100000x16 (constant S_ .f32 0x00000000#32)) (broadcastInDim S1700000x1 ![0] bcast_S1700000_S1700000x1_0 c) (mulf (broadcastInDim S1700000x16 ![0, 1] bcast_S1700000x1_S1700000x16_0_1 (broadcastInDim S1700000x1 ![0] bcast_S1700000_S1700000x1_0 n)) (Host.gather gather_S100000x16_S1700000x1_S1700000x16_1_0_n_n_0_1_116 xw (broadcastInDim S1700000x1 ![0] bcast_S1700000_S1700000x1_0 (select (cmpi .slt r (broadcastInDim S1700000 ![] bcast_S_S1700000 (constantI S_ 32 0#32))) (addi r (broadcastInDim S1700000 ![] bcast_S_S1700000 (constantI S_ 32 100000#32))) r)))))

end Cert.KernelIdeal.Graph

end
-- ==== Proof.LibStretch.lean ====
/-
  Two general facts about a straight line of host operations, for any program.

  * `after_append`: the buffer contents after two stretches of operations run one after the other are the second
    stretch's fold over the first's — so a long line is read back stretch by stretch, each stretch from whatever
    contents it finds.
  * `ofBuf_toBuf`: a value carried to the type of the buffer a typed reference names and back again is the value;
    the operations of an inlined call write and read their buffers through exactly these two transports, so every
    value that passes from one such operation to the next comes through unchanged. (A value that enters such an
    operation from a plain buffer, or leaves the last one, passes ONE transport: it is removed by
    `eq_of_heq (cast_heq _ _)`, the two types being the same once the reference's type is computed.)
-/
import Idealize.ShloMosaic.Lib.StableHlo.Run

noncomputable section

namespace Cert.LibStretch

open Idealize.ShloMosaic Idealize.ShloMosaic.StableHlo

variable {τ : Topo} {sig : RefSig} {Val : EltTy → Type}

/-- Two stretches one after the other. -/
theorem after_append (l1 l2 : List (HloOp τ sig Val)) (V : Valuation τ sig Val) :
    after (l1 ++ l2) V = after l2 (after l1 V) := by
  induction l1 generalizing V with
  | nil => rfl
  | cons a l ih => exact ih _

/-- Contents carried to a buffer's own type and back are the contents. -/
theorem ofBuf_toBuf {T : BufTy} (x : TRef sig T) (v : T.Contents Val) : x.ofBuf (x.toBuf v) = v := by
  obtain ⟨r, h, h1, h2⟩ := x
  subst h
  rfl

end Cert.LibStretch

end
-- ==== Proof.KernelHost.lean ====
/-
  The host stretches of the idealized kernel read back, for any contents they are entered with. The stretch before
  the first region builds the edge list with self loops and the edges' normalization and touches no argument; the
  stretch before the second region propagates the first product along the edges and lays the first bias out as a row;
  the stretch before the third propagates the second product and lays the second bias out as a row. Each statement
  says what ONE buffer holds after a stretch, as the operations' composed term of what the stretch found.
-/
import proofs.«133466_j38938173505764_1_alg».proof.Proof.Gen.KernelIdeal.Launch
import proofs.«133466_j38938173505764_1_alg».proof.Proof.KernelGraph
import proofs.«133466_j38938173505764_1_alg».proof.Proof.LibStretch
import Idealize.ShloMosaic.Lib.StableHlo.Run

set_option maxRecDepth 16384

noncomputable section

namespace Cert.KernelIdeal.Graph

open Cert.KernelIdeal Cert.KernelIdeal.Gen Cert.LibStretch Idealize.ShloMosaic Idealize.ShloMosaic.TcCoe Idealize.ShloMosaic.StableHlo

variable {F : FTy → Type} [FloatOps F]

/-- The first seven operations: the edge list's two rows, each with the nodes appended. -/
abbrev opsIdx : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The next fourteen: the degrees and their inverse square roots' ingredients. -/
abbrev opsDeg : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.sqrt : (⟨S100000, .f32⟩ : BufTy).Contents (Elt F) → (⟨S100000, .f32⟩ : BufTy).Contents (Elt F)),
    StableHlo.nullary main_cst_2 (constant S_ .f32 0x3F800000#32),
    StableHlo.unary main_cst_2 main_v14 (broadcastInDim S100000 ![] bcast_S_S100000 : (⟨S_, .f32⟩ : BufTy).Contents (Elt F) → (⟨S100000, .f32⟩ : BufTy).Contents (Elt F)),
    StableHlo.binary main_v14 main_v13 main_v15 (Host.divf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32) ]

theorem hostOps0_split : (hostOps0 : List (HloOp τ sig (Elt F))) = opsIdx ++ opsDeg := rfl

variable (V : Valuation τ sig (Elt F))

theorem idx_rows : after opsIdx V (Proc.devRef .tc main_v3) = rows (V (Proc.devRef .tc main_arg1)) := by
  after_results; rfl

theorem idx_cols : after opsIdx V (Proc.devRef .tc main_v6) = cols (V (Proc.devRef .tc main_arg1)) := by
  after_results; rfl

theorem deg_norm : after hostOps0_2 (after hostOps0_1 (after opsDeg V)) (Proc.devRef .tc main_v31)
    = norm (V (Proc.devRef .tc main_v3)) (V (Proc.devRef .tc main_v6)) := by
  after_results_simp; rfl

theorem deg_rows : after hostOps0_2 (after hostOps0_1 (after opsDeg V)) (Proc.devRef .tc main_v3) = V (Proc.devRef .tc main_v3) := by
  after_results_simp

theorem deg_cols : after hostOps0_2 (after hostOps0_1 (after opsDeg V)) (Proc.devRef .tc main_v6) = V (Proc.devRef .tc main_v6) := by
  after_results_simp

/-- The whole stretch before the first region. -/
abbrev before1 (V : Valuation τ sig (Elt F)) : Valuation τ sig (Elt F) := after hostOps0_2 (after hostOps0_1 (after hostOps0 V))

theorem before1_rows : before1 V (Proc.devRef .tc main_v3) = rows (V (Proc.devRef .tc main_arg1)) := by
  show after hostOps0_2 (after hostOps0_1 (after hostOps0 V)) _ = _
  rw [hostOps0_split, after_append, deg_rows, idx_rows]

theorem before1_cols : before1 V (Proc.devRef .tc main_v6) = cols (V (Proc.devRef .tc main_arg1)) := by
  show after hostOps0_2 (after hostOps0_1 (after hostOps0 V)) _ = _
  rw [hostOps0_split, after_append, deg_cols, idx_cols]

theorem before1_norm : before1 V (Proc.devRef .tc main_v31)
    = norm (rows (V (Proc.devRef .tc main_arg1))) (cols (V (Proc.devRef .tc main_arg1))) := by
  show after hostOps0_2 (after hostOps0_1 (after hostOps0 V)) _ = _
  rw [hostOps0_split, after_append, deg_norm, idx_rows, idx_cols]

theorem before1_main_arg0 : before1 V (Proc.devRef .tc main_arg0) = V (Proc.devRef .tc main_arg0) := by
  show after hostOps0_2 (after hostOps0_1 (after hostOps0 V)) _ = _
  after_results_simp

theorem before1_main_arg2 : before1 V (Proc.devRef .tc main_arg2) = V (Proc.devRef .tc main_arg2) := by
  show after hostOps0_2 (after hostOps0_1 (after hostOps0 V)) _ = _
  after_results_simp

theorem before1_main_arg3 : before1 V (Proc.devRef .tc main_arg3) = V (Proc.devRef .tc main_arg3) := by
  show after hostOps0_2 (after hostOps0_1 (after hostOps0 V)) _ = _
  after_results_simp

theorem before1_main_arg4 : before1 V (Proc.devRef .tc main_arg4) = V (Proc.devRef .tc main_arg4) := by
  show after hostOps0_2 (after hostOps0_1 (after hostOps0 V)) _ = _
  after_results_simp

theorem before1_main_arg5 : before1 V (Proc.devRef .tc main_arg5) = V (Proc.devRef .tc main_arg5) := by
  show after hostOps0_2 (after hostOps0_1 (after hostOps0 V)) _ = _
  after_results_simp

/-! ## The stretch before the second region -/

theorem before2_aggregate : after hostOps1 V (Proc.devRef .tc main_v45)
    = spread64 (V (Proc.devRef .tc main_v3)) (V (Proc.devRef .tc main_v6)) (V (Proc.devRef .tc main_v31)) (V (Proc.devRef .tc main_v32)) := by
  after_results_simp; rfl

theorem before2_bias : after hostOps1 V (Proc.devRef .tc main_v46)
    = shapeCast S1x64 (V (Proc.devRef .tc main_arg3)) shapeCasts_S64_S1x64 := by
  after_results_simp; rfl

theorem before2_main_v3 : after hostOps1 V (Proc.devRef .tc main_v3) = V (Proc.devRef .tc main_v3) := by
  after_results_simp

theorem before2_main_v6 : after hostOps1 V (Proc.devRef .tc main_v6) = V (Proc.devRef .tc main_v6) := by
  after_results_simp

theorem before2_main_v31 : after hostOps1 V (Proc.devRef .tc main_v31) = V (Proc.devRef .tc main_v31) := by
  after_results_simp

theorem before2_main_arg4 : after hostOps1 V (Proc.devRef .tc main_arg4) = V (Proc.devRef .tc main_arg4) := by
  after_results_simp

theorem before2_main_arg5 : after hostOps1 V (Proc.devRef .tc main_arg5) = V (Proc.devRef .tc main_arg5) := by
  after_results_simp

/-! ## The stretch before the third region -/

theorem before3_aggregate : after hostOps2 V (Proc.devRef .tc main_v60)
    = spread16 (V (Proc.devRef .tc main_v3)) (V (Proc.devRef .tc main_v6)) (V (Proc.devRef .tc main_v31)) (V (Proc.devRef .tc main_v47)) := by
  after_results_simp; rfl

theorem before3_bias : after hostOps2 V (Proc.devRef .tc main_v61)
    = shapeCast S1x16 (V (Proc.devRef .tc main_arg5)) shapeCasts_S16_S1x16 := by
  after_results_simp; rfl

end Cert.KernelIdeal.Graph

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.Spec.lean ====
/-
  The three dense stages of a two-layer graph convolution, as functions of whole arrays over the extended reals.

  * `product x w`: the matrix product, entry (r, j) the sum over e of x (r, e) · w (e, j).
  * `hiddenLayer agg brow w`: a bias row added to every row of `agg`, clamped below at zero, then multiplied by `w`:
    entry (r, j) is the sum over e of max (agg (r, e) + brow (0, e), 0) · w (e, j).
  * `logSoftmax z brow`: a bias row added to every row of `z`, then the row-wise log-softmax: with y the biased row and
    M the fold of max over it from minus infinity, entry (r, q) is (y q − M) − log Σ_d exp (y d − M).
  The zero and the minus infinity are kept as the words the programs print.
-/
import Idealize.ShloMosaic.PureOps.Ideal
import Idealize.ShloMosaic.Lib.ValueIdx

noncomputable section

namespace Cert.Spec

open Idealize.ShloMosaic Idealize.ShloMosaic.ValueIdx

variable {a k b : ℕ}

/-- The matrix product of an [a, k] and a [k, b] array. -/
def product (x : (⟨2, ![a, k]⟩ : Shape).Idx → EReal) (w : (⟨2, ![k, b]⟩ : Shape).Idx → EReal) :
    (⟨2, ![a, b]⟩ : Shape).Idx → EReal :=
  fun i => ∑ e : Fin k, x (ix2 (i 0) e) * w (ix2 e (i 1))

/-- Bias row added, clamp at zero, then the product with `w`. -/
def hiddenLayer (agg : (⟨2, ![a, k]⟩ : Shape).Idx → EReal) (brow : (⟨2, ![1, k]⟩ : Shape).Idx → EReal)
    (w : (⟨2, ![k, b]⟩ : Shape).Idx → EReal) : (⟨2, ![a, b]⟩ : Shape).Idx → EReal :=
  fun i => ∑ e : Fin k, max (agg (ix2 (i 0) e) + brow (ix2 (0 : Fin 1) e)) (Ideal.ofBits .f32 0x00000000#32) * w (ix2 e (i 1))

/-- The log-softmax of one row, at lane q. -/
def lsRow (y : Fin b → EReal) (q : Fin b) : EReal :=
  (y q - (Finset.univ : Finset (Fin b)).fold max (Ideal.ofBits .f32 0xFF800000#32) y)
    - Ideal.log (∑ d : Fin b, Ideal.exp (y d - (Finset.univ : Finset (Fin b)).fold max (Ideal.ofBits .f32 0xFF800000#32) y))

/-- The log-softmax of a row depends on the row's entries and the lane's number only. -/
theorem lsRow_congr (y y' : Fin b → EReal) (q q' : Fin b) (hy : ∀ d, y d = y' d) (hq : q.val = q'.val) :
    lsRow y q = lsRow y' q' := by
  obtain rfl : q = q' := Fin.ext hq
  obtain rfl : y = y' := funext hy
  rfl

/-- Bias row added, then the row-wise log-softmax. -/
def logSoftmax (z : (⟨2, ![a, b]⟩ : Shape).Idx → EReal) (brow : (⟨2, ![1, b]⟩ : Shape).Idx → EReal) :
    (⟨2, ![a, b]⟩ : Shape).Idx → EReal :=
  fun i => lsRow (fun d => z (ix2 (i 0) d) + brow (ix2 (0 : Fin 1) d)) (i 1)

end Cert.Spec

end
-- ==== Proof.Layer1.lean ====
/-
  The first dense layer. The row-tiled product kernel splits the [100000, 128] feature matrix into 20 blocks of
  5000 rows; at every block it multiplies the block by the whole [128, 64] weight matrix into a zero accumulator and
  writes the [5000, 64] product back as the same rows of the result. On the extended reals a product into zero is the
  plain sum over the contracted coordinate, so row r of the result — which lies in block r / 5000 at local row
  r % 5000 — is the sum over e of x (r, e) · w (e, j): the whole result array is one matrix product, whatever the
  contents the region is entered with.
-/
import proofs.«133466_j38938173505764_1_alg».proof.Proof.Gen.KernelIdeal.Frame
import proofs.«133466_j38938173505764_1_alg».proof.Proof.LibRowMax
import proofs.«133466_j38938173505764_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at local entry (p, q): row p of the feature block against column q of the weights. -/
theorem stored_apply (x0 : Vec Ideal S5000x128 .f32) (x1 : Vec Ideal S128x64 .f32) (p : Fin 5000) (q : Fin 64) :
    k0_pay1 x0 x1 (ix2 p q) = ∑ e : Fin 128, x0 (ix2 p e) * x1 (ix2 e q) := by
  unfold k0_pay1
  exact Cert.LibRowMax.matmul_plain_apply _ none _ _ p q

theorem stored_at (x0 : Vec Ideal S5000x128 .f32) (x1 : Vec Ideal S128x64 .f32) (j : S5000x64.Idx) :
    k0_pay1 x0 x1 j = ∑ e : Fin 128, x0 (ix2 (j 0) e) * x1 (ix2 e (j 1)) := by
  obtain ⟨p, q, rfl⟩ : ∃ (p : Fin 5000) (q : Fin 64), j = ix2 p q := ⟨j 0, j 1, eq_ix2 j⟩
  exact stored_apply x0 x1 p q

/-- Where the three windows' blocks sit at grid point t: the feature and result blocks at block row t, the weights whole. -/
theorem block_rows : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point t holds rows 5000 t … 5000 t + 4999 of the feature matrix. -/
theorem features_block (c : Dev nD) (t : Fin cfg0.N) (y : S5000x128.Idx) (k : S100000x128.Idx)
    (h0 : (k 0).val = 5000 * t.val + (y 0).val) (h1 : (k 1).val = (y 1).val) :
    (iblk0 V c 0 t : Vec Ideal S5000x128 .f32) y = (V c main_arg0 : S100000x128.Idx → EReal) k := by
  obtain ⟨e0, e1, -, -, -, -⟩ := block_rows t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (y 0).val = (k 0).val; rw [e0, h0]; omega
  | ⟨1, _⟩ => show win0_0.index t (1 : Fin 2) * 128 + 1 * (y 1).val = (k 1).val; rw [e1, h1]; omega

/-- The weight block at every point is the whole weight matrix. -/
theorem weights_block (c : Dev nD) (t : Fin cfg0.N) (y : S128x64.Idx) (k : S128x64.Idx)
    (h0 : (k 0).val = (y 0).val) (h1 : (k 1).val = (y 1).val) :
    (iblk0 V c 1 t : Vec Ideal S128x64 .f32) y = (V c main_arg2 : S128x64.Idx → EReal) k := by
  obtain ⟨-, -, e2, e3, -, -⟩ := block_rows t
  unfold iblk0
  rw [View.read_apply]
  show V c main_arg2 _ = V c main_arg2 _
  refine congrArg (V c main_arg2) (funext fun a => Fin.ext ?_)
  match a with
  | ⟨0, _⟩ => show win0_1.index t (0 : Fin 2) * 128 + 1 * (y 0).val = (k 0).val; rw [e2, h0]; omega
  | ⟨1, _⟩ => show win0_1.index t (1 : Fin 2) * 64 + 1 * (y 1).val = (k 1).val; rw [e3, h1]; omega

/-- What point t writes back is block t of the product of the two arrays as the region finds them. -/
theorem flushed_eq (c : Dev nD) (t : Fin cfg0.N) :
    (dat0 V c).flushed 2 t = ((cfg0.win 2).blk t).view.read (Elt Ideal) (product (a := 100000) (k := 128) (b := 64) (V c main_arg0) (V c main_arg2)) := by
  obtain ⟨-, -, -, -, e4, e5⟩ := block_rows t
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  funext j
  refine (stored_at (iblk0 V c 0 t) (iblk0 V c 1 t) j).trans ?_
  rw [View.read_apply]
  simp only [product, cast_eq]
  refine Finset.sum_congr rfl fun e _ => ?_
  have hr : ((((cfg0.win 2).blk t).view.emb j) 0).val = 5000 * t.val + (j 0).val := by
    show win0_2.index t (0 : Fin 2) * 5000 + 1 * (j 0).val = _
    rw [e4]; omega
  have hc : ((((cfg0.win 2).blk t).view.emb j) 1).val = (j 1).val := by
    show win0_2.index t (1 : Fin 2) * 64 + 1 * (j 1).val = _
    rw [e5]; omega
  rw [features_block V c t (ix2 (j 0) e) (ix2 ((((cfg0.win 2).blk t).view.emb j) 0) e) hr rfl,
    weights_block V c t (ix2 e (j 1)) (ix2 e ((((cfg0.win 2).blk t).view.emb j) 1)) rfl hc]

/-- An index of the result array is in point t's block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every row of the result lies in the block of the point numbered by its row divided by 5000. -/
theorem covered (i : S100000x64.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 64 := (i 1).isLt
  refine ⟨⟨(i 0).val / 5000, by rw [hN]; omega⟩, flush0_2 _, ?_⟩
  rw [mem_block]
  obtain ⟨-, -, -, -, e4, e5⟩ := block_rows ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; dsimp only; omega
  | ⟨1, _⟩ =>
    show win0_2.index _ (1 : Fin 2) * 64 ≤ (i 1).val ∧ (i 1).val < win0_2.index _ (1 : Fin 2) * 64 + 64
    rw [e5]; omega

/-- The result array after the region: the product of the feature and weight arrays as the region finds them. -/
theorem result (c : Dev nD) : (dat0 V c).arrAt 2 cfg0.N = product (a := 100000) (k := 128) (b := 64) (V c main_arg0) (V c main_arg2) :=
  (dat0 V c).arrAt_eq_of_cover 2 (product (a := 100000) (k := 128) (b := 64) (V c main_arg0) (V c main_arg2)) (fun t _ => flushed_eq V c t) covered

end Cert.KernelIdeal.Layer1

end
-- ==== Proof.Layer2.lean ====
/-
  The second dense layer. The row-tiled kernel splits the [100000, 64] aggregated features into 20 blocks of 5000
  rows; at every block it adds the bias row to each row, clamps below at zero, multiplies by the whole [64, 16]
  weight matrix into a zero accumulator and writes the [5000, 16] product back as the same rows of the result. On
  the extended reals row r of the result is the sum over e of max (agg (r, e) + bias (0, e), 0) · w (e, j), whatever
  the contents the region is entered with.
-/
import proofs.«133466_j38938173505764_1_alg».proof.Proof.Gen.KernelIdeal.Frame
import proofs.«133466_j38938173505764_1_alg».proof.Proof.LibRowMax
import proofs.«133466_j38938173505764_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at local entry (p, q): row p of the block, biased and clamped, against column q of the
    weights. -/
theorem stored_apply (x0 : Vec Ideal S5000x64 .f32) (x1 : Vec Ideal S1x64 .f32) (x2 : Vec Ideal S64x16 .f32)
    (p : Fin 5000) (q : Fin 16) :
    k1_pay1 x0 x1 x2 (ix2 p q)
      = ∑ e : Fin 64, max (x0 (ix2 p e) + x1 (ix2 (0 : Fin 1) e)) (Ideal.ofBits .f32 0x00000000#32) * x2 (ix2 e q) := by
  unfold k1_pay1
  refine (Cert.LibRowMax.matmul_plain_apply _ none _ _ p q).trans ?_
  refine Finset.sum_congr rfl fun e _ => ?_
  show max (shapeCast S5000x64 x0 shapeCasts_S5000x64_S5000x64 (ix2 p e)
      + broadcastTo S5000x64 (shapeCast S1x64 x1 shapeCasts_S1x64_S1x64) broadcasts_S1x64_S5000x64 (ix2 p e)) _ * x2 (ix2 e q) = _
  rw [shapeCast_self, shapeCast_self, broadcastTo_1b_ab_apply]
  rfl

theorem stored_at (x0 : Vec Ideal S5000x64 .f32) (x1 : Vec Ideal S1x64 .f32) (x2 : Vec Ideal S64x16 .f32) (j : S5000x16.Idx) :
    k1_pay1 x0 x1 x2 j
      = ∑ e : Fin 64, max (x0 (ix2 (j 0) e) + x1 (ix2 (0 : Fin 1) e)) (Ideal.ofBits .f32 0x00000000#32) * x2 (ix2 e (j 1)) := by
  obtain ⟨p, q, rfl⟩ : ∃ (p : Fin 5000) (q : Fin 16), j = ix2 p q := ⟨j 0, j 1, eq_ix2 j⟩
  exact stored_apply x0 x1 x2 p q

/-- Where the four windows' blocks sit at grid point t: the aggregate and result blocks at block row t, the bias row
    and the weights whole. -/
theorem block_rows : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregate block at point t holds rows 5000 t … 5000 t + 4999 of the aggregated features. -/
theorem aggregate_block (c : Dev nD) (t : Fin cfg1.N) (y : S5000x64.Idx) (k : S100000x64.Idx)
    (h0 : (k 0).val = 5000 * t.val + (y 0).val) (h1 : (k 1).val = (y 1).val) :
    (iblk1 V c 0 t : Vec Ideal S5000x64 .f32) y = (V c main_v45 : S100000x64.Idx → EReal) k := by
  obtain ⟨e0, e1, -, -, -, -, -, -⟩ := block_rows t
  unfold iblk1
  rw [View.read_apply]
  show V c main_v45 _ = V c main_v45 _
  refine congrArg (V c main_v45) (funext fun a => Fin.ext ?_)
  match a with
  | ⟨0, _⟩ => show win1_0.index t (0 : Fin 2) * 5000 + 1 * (y 0).val = (k 0).val; rw [e0, h0]; omega
  | ⟨1, _⟩ => show win1_0.index t (1 : Fin 2) * 64 + 1 * (y 1).val = (k 1).val; rw [e1, h1]; omega

/-- The bias block at every point is the whole bias row. -/
theorem bias_block (c : Dev nD) (t : Fin cfg1.N) (y : S1x64.Idx) :
    (iblk1 V c 1 t : Vec Ideal S1x64 .f32) y = (V c main_v46 : S1x64.Idx → EReal) y := by
  obtain ⟨-, -, e2, e3, -, -, -, -⟩ := block_rows t
  unfold iblk1
  rw [View.read_apply]
  show V c main_v46 _ = V c main_v46 _
  refine congrArg (V c main_v46) (funext fun a => Fin.ext ?_)
  match a with
  | ⟨0, _⟩ => show win1_1.index t (0 : Fin 2) * 1 + 1 * (y 0).val = (y 0).val; rw [e2]; omega
  | ⟨1, _⟩ => show win1_1.index t (1 : Fin 2) * 64 + 1 * (y 1).val = (y 1).val; rw [e3]; omega

/-- The weight block at every point is the whole weight matrix. -/
theorem weights_block (c : Dev nD) (t : Fin cfg1.N) (y : S64x16.Idx) (k : S64x16.Idx)
    (h0 : (k 0).val = (y 0).val) (h1 : (k 1).val = (y 1).val) :
    (iblk1 V c 2 t : Vec Ideal S64x16 .f32) y = (V c main_arg4 : S64x16.Idx → EReal) k := by
  obtain ⟨-, -, -, -, e4, e5, -, -⟩ := block_rows t
  unfold iblk1
  rw [View.read_apply]
  show V c main_arg4 _ = V c main_arg4 _
  refine congrArg (V c main_arg4) (funext fun a => Fin.ext ?_)
  match a with
  | ⟨0, _⟩ => show win1_2.index t (0 : Fin 2) * 64 + 1 * (y 0).val = (k 0).val; rw [e4, h0]; omega
  | ⟨1, _⟩ => show win1_2.index t (1 : Fin 2) * 16 + 1 * (y 1).val = (k 1).val; rw [e5, h1]; omega

/-- What point t writes back is block t of `hiddenLayer` of the three arrays as the region finds them. -/
theorem flushed_eq (c : Dev nD) (t : Fin cfg1.N) :
    (dat1 V c).flushed 3 t = ((cfg1.win 3).blk t).view.read (Elt Ideal)
      (hiddenLayer (a := 100000) (k := 64) (b := 16) (V c main_v45) (V c main_v46) (V c main_arg4)) := by
  obtain ⟨-, -, -, -, -, -, e6, e7⟩ := block_rows t
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x16) hz]
  funext j
  refine (stored_at (iblk1 V c 0 t) (iblk1 V c 1 t) (iblk1 V c 2 t) j).trans ?_
  rw [View.read_apply]
  simp only [hiddenLayer, cast_eq]
  refine Finset.sum_congr rfl fun e _ => ?_
  have hr : ((((cfg1.win 3).blk t).view.emb j) 0).val = 5000 * t.val + (j 0).val := by
    show win1_3.index t (0 : Fin 2) * 5000 + 1 * (j 0).val = _
    rw [e6]; omega
  have hc : ((((cfg1.win 3).blk t).view.emb j) 1).val = (j 1).val := by
    show win1_3.index t (1 : Fin 2) * 16 + 1 * (j 1).val = _
    rw [e7]; omega
  rw [aggregate_block V c t (ix2 (j 0) e) (ix2 ((((cfg1.win 3).blk t).view.emb j) 0) e) hr rfl,
    bias_block V c t (ix2 (0 : Fin 1) e),
    weights_block V c t (ix2 e (j 1)) (ix2 e ((((cfg1.win 3).blk t).view.emb j) 1)) rfl hc]

/-- An index of the result array is in point t's block iff each coordinate is in the block's range on its axis. -/
theorem mem_block (t : Fin cfg1.N) (i : S100000x16.Idx) :
    i ∈ ((cfg1.win 3).blk t).view.set ↔ ∀ a : Fin 2, win1_3.index t a * S5000x16.size a ≤ (i a).val ∧ (i a).val < win1_3.index t a * S5000x16.size a + S5000x16.size a := by
  show i ∈ ((View.whole main_v47).slice (win1_3.rect t)).set ↔ _
  rw [View.set_slice_whole, Rect.mem_set_unit]
  exact Iff.rfl

/-- Every row of the result lies in the block of the point numbered by its row divided by 5000. -/
theorem covered (i : S100000x16.Idx) : ∃ t : Fin cfg1.N, (cfg1.win 3).flush t = true ∧ i ∈ ((cfg1.win 3).blk t).view.set := by
  have hN : cfg1.N = 20 := N_1
  have hi0 : (i 0).val < 100000 := (i 0).isLt
  have hi1 : (i 1).val < 16 := (i 1).isLt
  refine ⟨⟨(i 0).val / 5000, by rw [hN]; omega⟩, flush1_3 _, ?_⟩
  rw [mem_block]
  obtain ⟨-, -, -, -, -, -, e6, e7⟩ := block_rows ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e6]; dsimp only; omega
  | ⟨1, _⟩ =>
    show win1_3.index _ (1 : Fin 2) * 16 ≤ (i 1).val ∧ (i 1).val < win1_3.index _ (1 : Fin 2) * 16 + 16
    rw [e7]; omega

/-- The result array after the region: `hiddenLayer` of the aggregate, bias-row and weight arrays as the region finds them. -/
theorem result (c : Dev nD) : (dat1 V c).arrAt 3 cfg1.N
    = hiddenLayer (a := 100000) (k := 64) (b := 16) (V c main_v45) (V c main_v46) (V c main_arg4) :=
  (dat1 V c).arrAt_eq_of_cover 3 _ (fun t _ => flushed_eq V c t) covered

end Cert.KernelIdeal.Layer2

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibLastAxis.lean ====
/-
  Two general facts over the extended reals, for any extents.

  * `max_last_apply`: a vector maximum of an `[a, b]` matrix along its LAST axis, read at row `p`, is the fold of
    `max` from the accumulator's value over the `b` lanes of that row (the companion of the last-axis sum and of
    the first-axis maximum).
  * `sum_mul_coe`: a finite sum of extended reals multiplied by a nonnegative REAL is the sum of the products,
    whatever the summands are — infinities of either sign included — because multiplication by a nonnegative
    finite factor distributes over every sum of two extended reals. It is what lets a positive scale move
    across a contraction without any finiteness of the operands.
-/
import Idealize.ShloMosaic.PureOps.Ideal.Laws
import Idealize.ShloMosaic.Lib.ValueIdx

noncomputable section

namespace Cert.LibLastAxis

open Idealize.ShloMosaic Idealize.ShloMosaic.ValueIdx

/-- A vector maximum along the last axis of a matrix, at row `p`: the fold of `max` from the accumulator's value
    over the lanes. -/
theorem max_last_apply {a b : ℕ} {φ : FTy} (x : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ x acc h hφ hacc (ix1 p)
      = (Finset.univ : Finset (Fin b)).fold max (Ideal.ofBits φ acc) fun k => x (ix2 p k) := by
  refine (Ideal.multiReduction_maximumf_single x acc h hφ hacc (ix1 p)).trans ?_
  refine congrArg (Finset.fold max (Ideal.ofBits φ acc) · Finset.univ) (funext fun k => ?_)
  exact congrArg x (funext fun c => Fin.ext (by match c with | ⟨0, _⟩ => rfl | ⟨1, _⟩ => rfl))

/-- A sum of extended reals times a nonnegative real is the sum of the products. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

end Cert.LibLastAxis

end
-- ==== Proof.LibLogSoftmax.lean ====
/-
  A row-wise log-softmax of an `[a, b]` matrix along its last axis, read at an entry given by its coordinates, on the
  extended reals, for any extents, in the two spellings programs print:

      (x_{p q} − m_p) − log Σ_d exp (x_{p d} − m_p),     m_p the fold of `max` over row `p` from minus infinity.

  * The vector unit's: the row maximum and the row sum are one-axis reductions kept as a column (`[a] → [a, 1]`) and
    broadcast across the lanes (`vector_apply`).
  * The host's: the row maximum is a reduce from minus infinity, joined once more with minus infinity (which changes
    nothing), the row sum a reduce from zero; both are placed as a column and broadcast (`host_apply`).
  Also the keepdims forms used on the way: a vector placed as a column and spread over the lanes reads the vector
  at the row (`keep_vector_apply`, `keep_host_apply`).
-/
import proofs.«133466_j38938173505764_1_alg».proof.Proof.LibColumn
import proofs.«133466_j38938173505764_1_alg».proof.Proof.LibLastAxis
import proofs.«133466_j38938173505764_1_alg».proof.Proof.LibRowMax
import Idealize.ShloMosaic.Lib.ValueLayout
import Idealize.ShloMosaic.Lib.Pipeline.Value
import Idealize.ShloMosaic.PureOps.Ideal.Laws

noncomputable section

namespace Cert.LibLogSoftmax

open Idealize.ShloMosaic Idealize.ShloMosaic.ValueIdx Cert.LibColumn Cert.LibLastAxis Cert.LibRowMax

variable {α : Type} {a b : ℕ}

/-- A vector `[a]` cast to a column and broadcast over `b` lanes reads, at `(p, q)`, the vector at `p`. -/
theorem keep_vector_apply (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ v hc) hb (ix2 p q) = v (ix1 p) :=
  (broadcastTo_a1_ab_apply _ hb p q).trans (shapeCast_a_a1_apply v hc p 0)

/-- The host's `[a]` vector placed as a column `[a, 1]` reads, at `(p, u)`, the vector at `p`. -/
theorem broadcastInDim_a_a1_apply (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's vector placed as a column and broadcast over `b` lanes reads, at `(p, q)`, the vector at `p`. -/
theorem keep_host_apply (v : (⟨1, ![a]⟩ : Shape).Idx → α) (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (broadcastInDim_a1_ab_apply _ h2 p q).trans (broadcastInDim_a_a1_apply v h1 p 0)

/-- The maximum from minus infinity. -/
theorem max_negInf (y : EReal) : max (Ideal.ofBits .f32 0xFF800000#32) y = y := by
  simp [Ideal.ofBits, Ideal.ieee]

/-- The vector unit's log-softmax along the last axis, at `(p, q)`. -/
theorem vector_apply (x : FVec Ideal ⟨2, ![a, b]⟩ .f32) (hr : (⟨2, ![a, b]⟩ : Shape).Reduces [1] ⟨1, ![a]⟩)
    (hφ : FKind.Formats .f32) (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf (subf x (broadcastTo ⟨2, ![a, b]⟩ (shapeCast ⟨2, ![a, 1]⟩
          (multiReduction .maximumf [1] ⟨1, ![a]⟩ x 0xFF800000#32 hr hφ hmax) hc) hb))
      (broadcastTo ⟨2, ![a, b]⟩ (log (shapeCast ⟨2, ![a, 1]⟩
          (multiReduction .add [1] ⟨1, ![a]⟩
            (exp (subf x (broadcastTo ⟨2, ![a, b]⟩ (shapeCast ⟨2, ![a, 1]⟩
              (multiReduction .maximumf [1] ⟨1, ![a]⟩ x 0xFF800000#32 hr hφ hmax) hc) hb)))
            0x00000000#32 hr hφ hadd) hc)) hb) (ix2 p q)
    = (x (ix2 p q) - (Finset.univ : Finset (Fin b)).fold max (Ideal.ofBits .f32 0xFF800000#32) fun d => x (ix2 p d))
      - Ideal.log (∑ d : Fin b, Ideal.exp (x (ix2 p d)
          - (Finset.univ : Finset (Fin b)).fold max (Ideal.ofBits .f32 0xFF800000#32) fun d => x (ix2 p d))) := by
  have e1 : ∀ d : Fin b, broadcastTo ⟨2, ![a, b]⟩ (shapeCast ⟨2, ![a, 1]⟩
        (multiReduction .maximumf [1] ⟨1, ![a]⟩ x 0xFF800000#32 hr hφ hmax) hc) hb (ix2 p d)
      = (Finset.univ : Finset (Fin b)).fold max (Ideal.ofBits .f32 0xFF800000#32) fun d => x (ix2 p d) := fun d =>
    (keep_vector_apply _ hc hb p d).trans (max_last_apply x 0xFF800000#32 hr hφ hmax p)
  have e2 : broadcastTo ⟨2, ![a, b]⟩ (log (shapeCast ⟨2, ![a, 1]⟩
        (multiReduction .add [1] ⟨1, ![a]⟩
          (exp (subf x (broadcastTo ⟨2, ![a, b]⟩ (shapeCast ⟨2, ![a, 1]⟩
            (multiReduction .maximumf [1] ⟨1, ![a]⟩ x 0xFF800000#32 hr hφ hmax) hc) hb)))
          0x00000000#32 hr hφ hadd) hc)) hb (ix2 p q)
      = Ideal.log (∑ d : Fin b, Ideal.exp (x (ix2 p d)
          - (Finset.univ : Finset (Fin b)).fold max (Ideal.ofBits .f32 0xFF800000#32) fun d => x (ix2 p d))) := by
    refine (broadcastTo_a1_ab_apply _ hb p q).trans ?_
    show Ideal.log (shapeCast ⟨2, ![a, 1]⟩ _ hc (ix2 p (0 : Fin 1))) = _
    rw [shapeCast_a_a1_apply _ hc p 0]
    refine congrArg Ideal.log ((sum_last_apply _ hr hφ hadd p).trans (Finset.sum_congr rfl fun d _ => ?_))
    show Ideal.exp (x (ix2 p d) - _) = _
    rw [e1 d]
  show (x (ix2 p q) - _) - _ = _
  rw [e1 q, e2]

/-- The host's log-softmax along the last axis, at `(p, q)`. -/
theorem host_apply (x : FVec Ideal ⟨2, ![a, b]⟩ .f32) (hr' : (⟨2, ![a, b]⟩ : Shape).ReducesTo [1] ⟨1, ![a]⟩)
    (hr : (⟨2, ![a, b]⟩ : Shape).Reduces [1] ⟨1, ![a]⟩) (hu : 0 < (⟨0, ![]⟩ : Shape).numel)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    subf (subf x (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf x (constant (F := Ideal) ⟨0, ![]⟩ .f32 0xFF800000#32) hr' hu)))))
      (broadcastInDim ⟨2, ![a, b]⟩ ![0, 1] h2 (Host.log (broadcastInDim ⟨2, ![a, 1]⟩ ![0] h1
          (Host.reduceAdd (Host.exp (subf x (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf x (constant (F := Ideal) ⟨0, ![]⟩ .f32 0xFF800000#32) hr' hu))))))
            (constant (F := Ideal) ⟨0, ![]⟩ .f32 0x00000000#32) hr' hu)))) (ix2 p q)
    = (x (ix2 p q) - (Finset.univ : Finset (Fin b)).fold max (Ideal.ofBits .f32 0xFF800000#32) fun d => x (ix2 p d))
      - Ideal.log (∑ d : Fin b, Ideal.exp (x (ix2 p d)
          - (Finset.univ : Finset (Fin b)).fold max (Ideal.ofBits .f32 0xFF800000#32) fun d => x (ix2 p d))) := by
  have hlift : ∀ d : Fin b, hr.lift (ix1 p) d = ix2 p d := fun d =>
    funext fun c => Fin.ext (by match c with | ⟨0, _⟩ => rfl | ⟨1, _⟩ => rfl)
  have em : maximumf (broadcastInDim ⟨1, ![a]⟩ ![] h0 (constant (F := Ideal) ⟨0, ![]⟩ .f32 0xFF800000#32))
        (Host.reduce FloatOps.maximumf x (constant (F := Ideal) ⟨0, ![]⟩ .f32 0xFF800000#32) hr' hu) (ix1 p)
      = (Finset.univ : Finset (Fin b)).fold max (Ideal.ofBits .f32 0xFF800000#32) fun d => x (ix2 p d) := by
    show max (broadcastInDim ⟨1, ![a]⟩ ![] h0 (constant (F := Ideal) ⟨0, ![]⟩ .f32 0xFF800000#32) (ix1 p))
        (Host.reduce FloatOps.maximumf x (constant (F := Ideal) ⟨0, ![]⟩ .f32 0xFF800000#32) hr' hu (ix1 p)) = _
    rw [broadcastInDim_apply _ h0 _ (ix1 p) ix0 (fun ax => ax.elim0),
      Host.reduce_eq_fold_single FloatOps.maximumf x _ hr' hr hu (ix1 p)]
    show max (Ideal.ofBits .f32 0xFF800000#32)
        ((Finset.univ : Finset (Fin b)).fold max (Ideal.ofBits .f32 0xFF800000#32) (x ∘ hr.lift (ix1 p))) = _
    rw [max_negInf]
    exact congrArg (Finset.fold max (Ideal.ofBits .f32 0xFF800000#32) · Finset.univ) (funext fun d => congrArg x (hlift d))
  have e1 : ∀ d : Fin b, broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf x (constant (F := Ideal) ⟨0, ![]⟩ .f32 0xFF800000#32) hr' hu))) (ix2 p d)
      = (Finset.univ : Finset (Fin b)).fold max (Ideal.ofBits .f32 0xFF800000#32) fun d => x (ix2 p d) := fun d =>
    (keep_host_apply _ h1 h2 p d).trans em
  have e2 : broadcastInDim ⟨2, ![a, b]⟩ ![0, 1] h2 (Host.log (broadcastInDim ⟨2, ![a, 1]⟩ ![0] h1
        (Host.reduceAdd (Host.exp (subf x (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf x (constant (F := Ideal) ⟨0, ![]⟩ .f32 0xFF800000#32) hr' hu))))))
          (constant (F := Ideal) ⟨0, ![]⟩ .f32 0x00000000#32) hr' hu))) (ix2 p q)
      = Ideal.log (∑ d : Fin b, Ideal.exp (x (ix2 p d)
          - (Finset.univ : Finset (Fin b)).fold max (Ideal.ofBits .f32 0xFF800000#32) fun d => x (ix2 p d))) := by
    refine (broadcastInDim_a1_ab_apply _ h2 p q).trans ?_
    refine (congrArg Ideal.log (broadcastInDim_a_a1_apply _ h1 p 0)).trans ?_
    refine congrArg Ideal.log ?_
    simp only [Host.reduceAdd, Ideal.hostReduceAdd_def]
    rw [Ideal.hostReduceAdd_single hr' hr]
    show Ideal.ofBits .f32 0x00000000#32 + _ = _
    rw [Ideal.ofBits_zero_f32, zero_add]
    refine Finset.sum_congr rfl fun d _ => ?_
    rw [hlift d]
    show Ideal.exp (x (ix2 p d) - _) = _
    rw [e1 d]
  show (x (ix2 p q) - _) - _ = _
  rw [e1 q, e2]

end Cert.LibLogSoftmax

end
-- ==== Proof.Closing.lean ====
/-
  The closing log-softmax. The row-tiled kernel splits the [100000, 16] aggregated class scores into 20 blocks of
  5000 rows; at every block it adds the bias row to each row and replaces the row by its log-softmax: the row maximum
  (a fold of max from minus infinity) subtracted, then the logarithm of the sum of the exponentials subtracted. Each
  row is treated by itself, so row r of the result is the log-softmax of row r of the input plus the bias row,
  whatever the contents the region is entered with.
-/
import proofs.«133466_j38938173505764_1_alg».proof.Proof.Gen.KernelIdeal.Frame
import proofs.«133466_j38938173505764_1_alg».proof.Proof.LibLogSoftmax
import proofs.«133466_j38938173505764_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Closing

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at local entry (p, q): the log-softmax of row p of the block plus the bias row, at lane q. -/
theorem stored_apply (x0 : Vec Ideal S5000x16 .f32) (x1 : Vec Ideal S1x16 .f32) (p : Fin 5000) (q : Fin 16) :
    k2_pay1 x0 x1 (ix2 p q) = lsRow (fun d : Fin 16 => x0 (ix2 p d) + x1 (ix2 (0 : Fin 1) d)) q := by
  have hx : ∀ d : Fin 16, addf (F := Ideal) (φ := .f32) (shapeCast S5000x16 x0 shapeCasts_S5000x16_S5000x16)
        (broadcastTo S5000x16 (shapeCast S1x16 x1 shapeCasts_S1x16_S1x16) broadcasts_S1x16_S5000x16) (ix2 p d)
      = x0 (ix2 p d) + x1 (ix2 (0 : Fin 1) d) := fun d => by
    show shapeCast S5000x16 x0 shapeCasts_S5000x16_S5000x16 (ix2 p d)
      + broadcastTo S5000x16 (shapeCast S1x16 x1 shapeCasts_S1x16_S1x16) broadcasts_S1x16_S5000x16 (ix2 p d) = _
    rw [shapeCast_self, shapeCast_self, broadcastTo_1b_ab_apply]
  unfold k2_pay1
  refine (Cert.LibLogSoftmax.vector_apply (a := 5000) (b := 16)
    (addf (F := Ideal) (φ := .f32) (shapeCast S5000x16 x0 shapeCasts_S5000x16_S5000x16)
      (broadcastTo S5000x16 (shapeCast S1x16 x1 shapeCasts_S1x16_S1x16) broadcasts_S1x16_S5000x16))
    reduces_S5000x16_S5000 (.inl rfl) rfl rfl shapeCasts_S5000_S5000x1 broadcasts_S5000x1_S5000x16 p q).trans ?_
  unfold lsRow
  simp only [hx]

theorem stored_at (x0 : Vec Ideal S5000x16 .f32) (x1 : Vec Ideal S1x16 .f32) (j : S5000x16.Idx) :
    k2_pay1 x0 x1 j = lsRow (fun d : Fin 16 => x0 (ix2 (j 0) d) + x1 (ix2 (0 : Fin 1) d)) (j 1) := by
  obtain ⟨p, q, rfl⟩ : ∃ (p : Fin 5000) (q : Fin 16), j = ix2 p q := ⟨j 0, j 1, eq_ix2 j⟩
  exact stored_apply x0 x1 p q

/-- Where the three windows' blocks sit at grid point t: the score and result blocks at block row t, the bias row whole. -/
theorem block_rows : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The score block at point t holds rows 5000 t … 5000 t + 4999 of the aggregated scores. -/
theorem scores_block (c : Dev nD) (t : Fin cfg2.N) (y : S5000x16.Idx) (k : S100000x16.Idx)
    (h0 : (k 0).val = 5000 * t.val + (y 0).val) (h1 : (k 1).val = (y 1).val) :
    (iblk2 V c 0 t : Vec Ideal S5000x16 .f32) y = (V c main_v60 : S100000x16.Idx → EReal) k := by
  obtain ⟨e0, e1, -, -, -, -⟩ := block_rows t
  unfold iblk2
  rw [View.read_apply]
  show V c main_v60 _ = V c main_v60 _
  refine congrArg (V c main_v60) (funext fun a => Fin.ext ?_)
  match a with
  | ⟨0, _⟩ => show win2_0.index t (0 : Fin 2) * 5000 + 1 * (y 0).val = (k 0).val; rw [e0, h0]; omega
  | ⟨1, _⟩ => show win2_0.index t (1 : Fin 2) * 16 + 1 * (y 1).val = (k 1).val; rw [e1, h1]; omega

/-- The bias block at every point is the whole bias row. -/
theorem bias_block (c : Dev nD) (t : Fin cfg2.N) (y : S1x16.Idx) :
    (iblk2 V c 1 t : Vec Ideal S1x16 .f32) y = (V c main_v61 : S1x16.Idx → EReal) y := by
  obtain ⟨-, -, e2, e3, -, -⟩ := block_rows t
  unfold iblk2
  rw [View.read_apply]
  show V c main_v61 _ = V c main_v61 _
  refine congrArg (V c main_v61) (funext fun a => Fin.ext ?_)
  match a with
  | ⟨0, _⟩ => show win2_1.index t (0 : Fin 2) * 1 + 1 * (y 0).val = (y 0).val; rw [e2]; omega
  | ⟨1, _⟩ => show win2_1.index t (1 : Fin 2) * 16 + 1 * (y 1).val = (y 1).val; rw [e3]; omega

/-- What point t writes back is block t of the biased row-wise log-softmax of the two arrays as the region finds them. -/
theorem flushed_eq (c : Dev nD) (t : Fin cfg2.N) :
    (dat2 V c).flushed 2 t = ((cfg2.win 2).blk t).view.read (Elt Ideal)
      (logSoftmax (a := 100000) (b := 16) (V c main_v60) (V c main_v61)) := by
  obtain ⟨-, -, -, -, e4, e5⟩ := block_rows t
  show (cfg2.win 2).cut (grid2.coords t) ((dat2 V c).after 2 t) = _
  rw [after2_2]
  unfold out2_2
  rw [View.canon_unit_zero hz]
  simp only [View.ld_unit_zero (S := S5000x16) hz, View.ld_unit_zero (S := S1x16) hz]
  funext j
  refine (stored_at (iblk2 V c 0 t) (iblk2 V c 1 t) j).trans ?_
  rw [View.read_apply]
  simp only [logSoftmax, cast_eq]
  have hr : ((((cfg2.win 2).blk t).view.emb j) 0).val = 5000 * t.val + (j 0).val := by
    show win2_2.index t (0 : Fin 2) * 5000 + 1 * (j 0).val = _
    rw [e4]; omega
  have hc : ((((cfg2.win 2).blk t).view.emb j) 1).val = (j 1).val := by
    show win2_2.index t (1 : Fin 2) * 16 + 1 * (j 1).val = _
    rw [e5]; omega
  refine lsRow_congr (b := 16) _ _ _ _ (fun d => ?_) hc.symm
  rw [scores_block V c t (ix2 (j 0) d) (ix2 ((((cfg2.win 2).blk t).view.emb j) 0) d) hr rfl,
    bias_block V c t (ix2 (0 : Fin 1) d)]

/-- An index of the result array is in point t's block iff each coordinate is in the block's range on its axis. -/
theorem mem_block (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v62).slice (win2_2.rect t)).set ↔ _
  rw [View.set_slice_whole, Rect.mem_set_unit]
  exact Iff.rfl

/-- Every row of the result lies in the block of the point numbered by its row divided by 5000. -/
theorem covered (i : S100000x16.Idx) : ∃ t : Fin cfg2.N, (cfg2.win 2).flush t = true ∧ i ∈ ((cfg2.win 2).blk t).view.set := by
  have hN : cfg2.N = 20 := N_2
  have hi0 : (i 0).val < 100000 := (i 0).isLt
  have hi1 : (i 1).val < 16 := (i 1).isLt
  refine ⟨⟨(i 0).val / 5000, by rw [hN]; omega⟩, flush2_2 _, ?_⟩
  rw [mem_block]
  obtain ⟨-, -, -, -, e4, e5⟩ := block_rows ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e4]; dsimp only; omega
  | ⟨1, _⟩ =>
    show win2_2.index _ (1 : Fin 2) * 16 ≤ (i 1).val ∧ (i 1).val < win2_2.index _ (1 : Fin 2) * 16 + 16
    rw [e5]; omega

/-- The result array after the region: the biased row-wise log-softmax of the score and bias-row arrays as the region
    finds them. -/
theorem result (c : Dev nD) : (dat2 V c).arrAt 2 cfg2.N
    = logSoftmax (a := 100000) (b := 16) (V c main_v60) (V c main_v61) :=
  (dat2 V c).arrAt_eq_of_cover 2 _ (fun t _ => flushed_eq V c t) covered

end Cert.KernelIdeal.Closing

end
-- ==== Proof.KernelValue.lean ====
/-
  What the idealized kernel's result buffer holds at the end, as one function of the six argument arrays: the
  contents at each boundary of the program followed from the launch to the return. Before the first region the host
  builds the edge list and its normalization from the second argument alone; the first region leaves the product of
  the features and the first weights; the next stretch propagates it along the edges; the second region adds the first
  bias, clamps at zero and multiplies by the second weights; the next stretch propagates that; the last region adds the
  second bias and takes the row-wise log-softmax.
-/
import proofs.«133466_j38938173505764_1_alg».proof.Proof.KernelRun
import proofs.«133466_j38938173505764_1_alg».proof.Proof.KernelHost
import proofs.«133466_j38938173505764_1_alg».proof.Proof.Layer1
import proofs.«133466_j38938173505764_1_alg».proof.Proof.Layer2
import proofs.«133466_j38938173505764_1_alg».proof.Proof.Closing

set_option maxRecDepth 16384

noncomputable section

namespace Cert.KernelIdeal.Named

open Cert.KernelIdeal Cert.KernelIdeal.Gen Cert.KernelIdeal.Graph Cert.Spec
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The result as one function of the argument arrays. -/
abbrev outcome : S100000x16.Idx → EReal :=
  (logSoftmax (a := 100000) (b := 16) (spread16 (F := Ideal) (rows (m ((c.tc : Thread nD τ).loc main_arg1))) (cols (m ((c.tc : Thread nD τ).loc main_arg1))) (norm (F := Ideal) (rows (m ((c.tc : Thread nD τ).loc main_arg1))) (cols (m ((c.tc : Thread nD τ).loc main_arg1)))) (hiddenLayer (a := 100000) (k := 64) (b := 16) (spread64 (F := Ideal) (rows (m ((c.tc : Thread nD τ).loc main_arg1))) (cols (m ((c.tc : Thread nD τ).loc main_arg1))) (norm (F := Ideal) (rows (m ((c.tc : Thread nD τ).loc main_arg1))) (cols (m ((c.tc : Thread nD τ).loc main_arg1)))) (product (a := 100000) (k := 128) (b := 64) (m ((c.tc : Thread nD τ).loc main_arg0)) (m ((c.tc : Thread nD τ).loc main_arg2)))) (shapeCast S1x64 (m ((c.tc : Thread nD τ).loc main_arg3)) shapeCasts_S64_S1x64) (m ((c.tc : Thread nD τ).loc main_arg4)))) (shapeCast S1x16 (m ((c.tc : Thread nD τ).loc main_arg5)) shapeCasts_S16_S1x16))

/-! ## At the first region's entry -/

theorem at3_main_v3 : W3 m ρ c (Proc.devRef .tc main_v3) = (rows (m ((c.tc : Thread nD τ).loc main_arg1))) := before1_rows (W0 m ρ c)
theorem at3_main_v6 : W3 m ρ c (Proc.devRef .tc main_v6) = (cols (m ((c.tc : Thread nD τ).loc main_arg1))) := before1_cols (W0 m ρ c)
theorem at3_main_v31 : W3 m ρ c (Proc.devRef .tc main_v31) = (norm (F := Ideal) (rows (m ((c.tc : Thread nD τ).loc main_arg1))) (cols (m ((c.tc : Thread nD τ).loc main_arg1)))) := before1_norm (W0 m ρ c)
theorem at3_main_arg0 : W3 m ρ c (Proc.devRef .tc main_arg0) = (m ((c.tc : Thread nD τ).loc main_arg0)) := before1_main_arg0 (W0 m ρ c)
theorem at3_main_arg2 : W3 m ρ c (Proc.devRef .tc main_arg2) = (m ((c.tc : Thread nD τ).loc main_arg2)) := before1_main_arg2 (W0 m ρ c)
theorem at3_main_arg3 : W3 m ρ c (Proc.devRef .tc main_arg3) = (m ((c.tc : Thread nD τ).loc main_arg3)) := before1_main_arg3 (W0 m ρ c)
theorem at3_main_arg4 : W3 m ρ c (Proc.devRef .tc main_arg4) = (m ((c.tc : Thread nD τ).loc main_arg4)) := before1_main_arg4 (W0 m ρ c)
theorem at3_main_arg5 : W3 m ρ c (Proc.devRef .tc main_arg5) = (m ((c.tc : Thread nD τ).loc main_arg5)) := before1_main_arg5 (W0 m ρ c)

/-! ## At the first region's exit -/

theorem at4_main_v32 : W4 m ρ c (Proc.devRef .tc main_v32) = (product (a := 100000) (k := 128) (b := 64) (m ((c.tc : Thread nD τ).loc main_arg0)) (m ((c.tc : Thread nD τ).loc main_arg2))) := by
  refine (W4_arr m ρ c 2).trans ((Cert.KernelIdeal.Layer1.result (V3 m ρ) c).trans ?_)
  show product (a := 100000) (k := 128) (b := 64) (W3 m ρ c (Proc.devRef .tc main_arg0)) (W3 m ρ c (Proc.devRef .tc main_arg2)) = _
  rw [at3_main_arg0, at3_main_arg2]

theorem at4_main_v3 : W4 m ρ c (Proc.devRef .tc main_v3) = (rows (m ((c.tc : Thread nD τ).loc main_arg1))) := (W4_of_ne m ρ c main_v3 (by decide)).trans (at3_main_v3 m ρ c)
theorem at4_main_v6 : W4 m ρ c (Proc.devRef .tc main_v6) = (cols (m ((c.tc : Thread nD τ).loc main_arg1))) := (W4_of_ne m ρ c main_v6 (by decide)).trans (at3_main_v6 m ρ c)
theorem at4_main_v31 : W4 m ρ c (Proc.devRef .tc main_v31) = (norm (F := Ideal) (rows (m ((c.tc : Thread nD τ).loc main_arg1))) (cols (m ((c.tc : Thread nD τ).loc main_arg1)))) := (W4_of_ne m ρ c main_v31 (by decide)).trans (at3_main_v31 m ρ c)
theorem at4_main_arg3 : W4 m ρ c (Proc.devRef .tc main_arg3) = (m ((c.tc : Thread nD τ).loc main_arg3)) := (W4_of_ne m ρ c main_arg3 (by decide)).trans (at3_main_arg3 m ρ c)
theorem at4_main_arg4 : W4 m ρ c (Proc.devRef .tc main_arg4) = (m ((c.tc : Thread nD τ).loc main_arg4)) := (W4_of_ne m ρ c main_arg4 (by decide)).trans (at3_main_arg4 m ρ c)
theorem at4_main_arg5 : W4 m ρ c (Proc.devRef .tc main_arg5) = (m ((c.tc : Thread nD τ).loc main_arg5)) := (W4_of_ne m ρ c main_arg5 (by decide)).trans (at3_main_arg5 m ρ c)

/-! ## At the second region's entry -/

theorem at5_main_v45 : W5 m ρ c (Proc.devRef .tc main_v45) = (spread64 (F := Ideal) (rows (m ((c.tc : Thread nD τ).loc main_arg1))) (cols (m ((c.tc : Thread nD τ).loc main_arg1))) (norm (F := Ideal) (rows (m ((c.tc : Thread nD τ).loc main_arg1))) (cols (m ((c.tc : Thread nD τ).loc main_arg1)))) (product (a := 100000) (k := 128) (b := 64) (m ((c.tc : Thread nD τ).loc main_arg0)) (m ((c.tc : Thread nD τ).loc main_arg2)))) := by
  refine (before2_aggregate (W4 m ρ c)).trans ?_
  rw [at4_main_v3, at4_main_v6, at4_main_v31, at4_main_v32]

theorem at5_main_v46 : W5 m ρ c (Proc.devRef .tc main_v46) = (shapeCast S1x64 (m ((c.tc : Thread nD τ).loc main_arg3)) shapeCasts_S64_S1x64) := by
  refine (before2_bias (W4 m ρ c)).trans ?_
  rw [at4_main_arg3]

theorem at5_main_v3 : W5 m ρ c (Proc.devRef .tc main_v3) = (rows (m ((c.tc : Thread nD τ).loc main_arg1))) := (before2_main_v3 (W4 m ρ c)).trans (at4_main_v3 m ρ c)
theorem at5_main_v6 : W5 m ρ c (Proc.devRef .tc main_v6) = (cols (m ((c.tc : Thread nD τ).loc main_arg1))) := (before2_main_v6 (W4 m ρ c)).trans (at4_main_v6 m ρ c)
theorem at5_main_v31 : W5 m ρ c (Proc.devRef .tc main_v31) = (norm (F := Ideal) (rows (m ((c.tc : Thread nD τ).loc main_arg1))) (cols (m ((c.tc : Thread nD τ).loc main_arg1)))) := (before2_main_v31 (W4 m ρ c)).trans (at4_main_v31 m ρ c)
theorem at5_main_arg4 : W5 m ρ c (Proc.devRef .tc main_arg4) = (m ((c.tc : Thread nD τ).loc main_arg4)) := (before2_main_arg4 (W4 m ρ c)).trans (at4_main_arg4 m ρ c)
theorem at5_main_arg5 : W5 m ρ c (Proc.devRef .tc main_arg5) = (m ((c.tc : Thread nD τ).loc main_arg5)) := (before2_main_arg5 (W4 m ρ c)).trans (at4_main_arg5 m ρ c)

/-! ## At the second region's exit -/

theorem at6_main_v47 : W6 m ρ c (Proc.devRef .tc main_v47) = (hiddenLayer (a := 100000) (k := 64) (b := 16) (spread64 (F := Ideal) (rows (m ((c.tc : Thread nD τ).loc main_arg1))) (cols (m ((c.tc : Thread nD τ).loc main_arg1))) (norm (F := Ideal) (rows (m ((c.tc : Thread nD τ).loc main_arg1))) (cols (m ((c.tc : Thread nD τ).loc main_arg1)))) (product (a := 100000) (k := 128) (b := 64) (m ((c.tc : Thread nD τ).loc main_arg0)) (m ((c.tc : Thread nD τ).loc main_arg2)))) (shapeCast S1x64 (m ((c.tc : Thread nD τ).loc main_arg3)) shapeCasts_S64_S1x64) (m ((c.tc : Thread nD τ).loc main_arg4))) := by
  refine (W6_arr m ρ c 3).trans ((Cert.KernelIdeal.Layer2.result (V5 m ρ) c).trans ?_)
  show hiddenLayer (a := 100000) (k := 64) (b := 16) (W5 m ρ c (Proc.devRef .tc main_v45)) (W5 m ρ c (Proc.devRef .tc main_v46)) (W5 m ρ c (Proc.devRef .tc main_arg4)) = _
  rw [at5_main_v45, at5_main_v46, at5_main_arg4]

theorem at6_main_v3 : W6 m ρ c (Proc.devRef .tc main_v3) = (rows (m ((c.tc : Thread nD τ).loc main_arg1))) := (W6_of_ne m ρ c main_v3 (by decide)).trans (at5_main_v3 m ρ c)
theorem at6_main_v6 : W6 m ρ c (Proc.devRef .tc main_v6) = (cols (m ((c.tc : Thread nD τ).loc main_arg1))) := (W6_of_ne m ρ c main_v6 (by decide)).trans (at5_main_v6 m ρ c)
theorem at6_main_v31 : W6 m ρ c (Proc.devRef .tc main_v31) = (norm (F := Ideal) (rows (m ((c.tc : Thread nD τ).loc main_arg1))) (cols (m ((c.tc : Thread nD τ).loc main_arg1)))) := (W6_of_ne m ρ c main_v31 (by decide)).trans (at5_main_v31 m ρ c)
theorem at6_main_arg5 : W6 m ρ c (Proc.devRef .tc main_arg5) = (m ((c.tc : Thread nD τ).loc main_arg5)) := (W6_of_ne m ρ c main_arg5 (by decide)).trans (at5_main_arg5 m ρ c)

/-! ## At the third region's entry and exit -/

theorem at7_main_v60 : W7 m ρ c (Proc.devRef .tc main_v60) = (spread16 (F := Ideal) (rows (m ((c.tc : Thread nD τ).loc main_arg1))) (cols (m ((c.tc : Thread nD τ).loc main_arg1))) (norm (F := Ideal) (rows (m ((c.tc : Thread nD τ).loc main_arg1))) (cols (m ((c.tc : Thread nD τ).loc main_arg1)))) (hiddenLayer (a := 100000) (k := 64) (b := 16) (spread64 (F := Ideal) (rows (m ((c.tc : Thread nD τ).loc main_arg1))) (cols (m ((c.tc : Thread nD τ).loc main_arg1))) (norm (F := Ideal) (rows (m ((c.tc : Thread nD τ).loc main_arg1))) (cols (m ((c.tc : Thread nD τ).loc main_arg1)))) (product (a := 100000) (k := 128) (b := 64) (m ((c.tc : Thread nD τ).loc main_arg0)) (m ((c.tc : Thread nD τ).loc main_arg2)))) (shapeCast S1x64 (m ((c.tc : Thread nD τ).loc main_arg3)) shapeCasts_S64_S1x64) (m ((c.tc : Thread nD τ).loc main_arg4)))) := by
  refine (before3_aggregate (W6 m ρ c)).trans ?_
  rw [at6_main_v3, at6_main_v6, at6_main_v31, at6_main_v47]

theorem at7_main_v61 : W7 m ρ c (Proc.devRef .tc main_v61) = (shapeCast S1x16 (m ((c.tc : Thread nD τ).loc main_arg5)) shapeCasts_S16_S1x16) := by
  refine (before3_bias (W6 m ρ c)).trans ?_
  rw [at6_main_arg5]

/-- The result buffer at the end. -/
theorem at8_main_v62 : W8 m ρ c (Proc.devRef .tc main_v62) = outcome m c := by
  refine (W8_arr m ρ c 2).trans ((Cert.KernelIdeal.Closing.result (V7 m ρ) c).trans ?_)
  show logSoftmax (a := 100000) (b := 16) (W7 m ρ c (Proc.devRef .tc main_v60)) (W7 m ρ c (Proc.devRef .tc main_v61)) = _
  rw [at7_main_v60, at7_main_v61]

/-- The idealized kernel's run, its result named as a function of the arguments. -/
theorem valued (ρ : Dev nD → PrngReg) : θ_run defs (onTc (τ := τ) (main (F := Ideal))) ⟨m, fun _ => 0, ρ⟩ (fun r => ∀ c : Dev nD,
      r.2.mem ((c.tc : Thread nD τ).loc main_v62) = outcome m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (at8_main_v62 m ρ c), (h c).2⟩) (run (F := Ideal) m ρ)

end Cert.KernelIdeal.Named

end
-- ==== Proof.ReferenceGraph.lean ====
/-
  The sparse half of a graph convolution, as the host operations spell it: the edge list with a self loop appended
  for every node (`rows` the sources, `cols` the targets), the symmetric normalization of an edge (the product of the
  inverse square roots of its end points' degrees, zero where a degree is not positive: `norm`), and the propagation of a
  feature matrix along the edges (`spread64`, `spread16`: gather each edge's source row, scale it by the edge's
  normalization, add it into the target's row). The terms are the program's own operations, composed.
-/
import proofs.«133466_j38938173505764_1_alg».proof.Proof.Gen.ReferenceIdeal

noncomputable section

namespace Cert.ReferenceIdeal.Graph

open Cert.ReferenceIdeal Cert.ReferenceIdeal.Gen Idealize.ShloMosaic

variable {F : FTy → Type} [FloatOps F]

/-- The sources: the edge list's first row, then every node once. -/
def rows (e : IVec S2x1600000 32) : IVec S1700000 32 :=
  (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)

/-- The targets: the edge list's second row, then every node once. -/
def cols (e : IVec S2x1600000 32) : IVec S1700000 32 :=
  (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)

/-- The edges' normalization from the sources `r` and targets `c`. -/
def norm (r c : IVec S1700000 32) : FVec F S1700000 .f32 :=
  (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 c) (broadcastInDim S1700000 ![] bcast_S_S1700000 (constant S_ .f32 0x3F800000#32))) (broadcastInDim S100000 ![] bcast_S_S100000 (constant S_ .f32 0x00000000#32))) (Host.divf (broadcastInDim S100000 ![] bcast_S_S100000 (constant S_ .f32 0x3F800000#32)) (Host.sqrt (Host.scatterAdd scatter_S100000_S1700000x1_S1700000_n_0_0_1 (broadcastInDim S100000 ![] bcast_S_S100000 (constant S_ .f32 0x00000000#32)) (broadcastInDim S1700000x1 ![0] bcast_S1700000_S1700000x1_0 c) (broadcastInDim S1700000 ![] bcast_S_S1700000 (constant S_ .f32 0x3F800000#32))))) (broadcastInDim S100000 ![] bcast_S_S100000 (id (constant S_ .f32 0x00000000#32)))) (broadcastInDim S1700000x1 ![0] bcast_S1700000_S1700000x1_0 (select (cmpi .slt r (broadcastInDim S1700000 ![] bcast_S_S1700000 (constantI S_ 32 0#32))) (addi r (broadcastInDim S1700000 ![] bcast_S_S1700000 (constantI S_ 32 100000#32))) r))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 c) (broadcastInDim S1700000 ![] bcast_S_S1700000 (constant S_ .f32 0x3F800000#32))) (broadcastInDim S100000 ![] bcast_S_S100000 (constant S_ .f32 0x00000000#32))) (Host.divf (broadcastInDim S100000 ![] bcast_S_S100000 (constant S_ .f32 0x3F800000#32)) (Host.sqrt (Host.scatterAdd scatter_S100000_S1700000x1_S1700000_n_0_0_1 (broadcastInDim S100000 ![] bcast_S_S100000 (constant S_ .f32 0x00000000#32)) (broadcastInDim S1700000x1 ![0] bcast_S1700000_S1700000x1_0 c) (broadcastInDim S1700000 ![] bcast_S_S1700000 (constant S_ .f32 0x3F800000#32))))) (broadcastInDim S100000 ![] bcast_S_S100000 (id (constant S_ .f32 0x00000000#32)))) (broadcastInDim S1700000x1 ![0] bcast_S1700000_S1700000x1_0 (select (cmpi .slt c (broadcastInDim S1700000 ![] bcast_S_S1700000 (constantI S_ 32 0#32))) (addi c (broadcastInDim S1700000 ![] bcast_S_S1700000 (constantI S_ 32 100000#32))) c))))

/-- A [100000, 64] matrix propagated along the edges. -/
def spread64 (r c : IVec S1700000 32) (n : FVec F S1700000 .f32) (xw : FVec F S100000x64 .f32) : FVec F S100000x64 .f32 :=
  (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 c) (mulf (broadcastInDim S1700000x64 ![0, 1] bcast_S1700000x1_S1700000x64_0_1 (broadcastInDim S1700000x1 ![0] bcast_S1700000_S1700000x1_0 n)) (Host.gather gather_S100000x64_S1700000x1_S1700000x64_1_0_n_n_0_1_164 xw (broadcastInDim S1700000x1 ![0] bcast_S1700000_S1700000x1_0 (select (cmpi .slt r (broadcastInDim S1700000 ![] bcast_S_S1700000 (constantI S_ 32 0#32))) (addi r (broadcastInDim S1700000 ![] bcast_S_S1700000 (constantI S_ 32 100000#32))) r)))))

/-- A [100000, 16] matrix propagated along the edges. -/
def spread16 (r c : IVec S1700000 32) (n : FVec F S1700000 .f32) (xw : FVec F S100000x16 .f32) : FVec F S100000x16 .f32 :=
  (Host.scatterAdd scatter_S100000x16_S1700000x1_S1700000x16_1_0_0_1 (broadcastInDim S100000x16 ![] bcast_S_S100000x16 (constant S_ .f32 0x00000000#32)) (broadcastInDim S1700000x1 ![0] bcast_S1700000_S1700000x1_0 c) (mulf (broadcastInDim S1700000x16 ![0, 1] bcast_S1700000x1_S1700000x16_0_1 (broadcastInDim S1700000x1 ![0] bcast_S1700000_S1700000x1_0 n)) (Host.gather gather_S100000x16_S1700000x1_S1700000x16_1_0_n_n_0_1_116 xw (broadcastInDim S1700000x1 ![0] bcast_S1700000_S1700000x1_0 (select (cmpi .slt r (broadcastInDim S1700000 ![] bcast_S_S1700000 (constantI S_ 32 0#32))) (addi r (broadcastInDim S1700000 ![] bcast_S_S1700000 (constantI S_ 32 100000#32))) r)))))

end Cert.ReferenceIdeal.Graph

end
-- ==== Proof.ReferenceHost.lean ====
/-
  The reference program read back, for any contents it is entered with. Its first forty-three operations build the
  edge list with self loops and the edges' normalization, as the kernel's first stretch does; the other fifty-eight are
  the first product, its propagation along the edges, the bias, the clamp at zero, the second product, its propagation,
  the bias and the row-wise log-softmax. Each statement says what ONE buffer holds after a stretch, as the operations'
  composed term of what the stretch found; the last puts the two stretches together over the launch contents.
-/
import proofs.«133466_j38938173505764_1_alg».proof.Proof.RefRun
import proofs.«133466_j38938173505764_1_alg».proof.Proof.ReferenceGraph
import proofs.«133466_j38938173505764_1_alg».proof.Proof.LibStretch
import Idealize.ShloMosaic.Lib.StableHlo.Run

set_option maxRecDepth 16384

noncomputable section

namespace Cert.ReferenceIdeal.Graph

open Cert.ReferenceIdeal Cert.ReferenceIdeal.Gen Cert.ReferenceIdeal.ValueP Cert.LibStretch Idealize.ShloMosaic Idealize.ShloMosaic.TcCoe Idealize.SL.Sem Idealize.ShloMosaic.StableHlo

variable {F : FTy → Type} [FloatOps F]

/-- The first seven operations: the edge list's two rows, each with the nodes appended. -/
abbrev opsIdx : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The next thirty-six: the degrees, their inverse square roots, the edges' normalization. -/
abbrev opsDeg : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.sqrt : (⟨S100000, .f32⟩ : BufTy).Contents (Elt F) → (⟨S100000, .f32⟩ : BufTy).Contents (Elt F)),
    nullary main_cst_2 (constant S_ .f32 0x3F800000#32),
    unary main_cst_2 main_v14 (broadcastInDim S100000 ![] bcast_S_S100000 : (⟨S_, .f32⟩ : BufTy).Contents (Elt F) → (⟨S100000, .f32⟩ : BufTy).Contents (Elt F)),
    binary main_v14 main_v13 main_v15 (Host.divf : (⟨S100000, .f32⟩ : BufTy).Contents (Elt F) → (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- The first product and its propagation along the edges (seventeen operations). -/
abbrev opsLayer1 : List (HloOp τ sig (Elt F)) :=
  [ binary main_arg0 main_arg2 main_v32 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_v31 main_v33 (broadcastInDim S1700000x1 ![0] bcast_S1700000_S1700000x1_0 : (⟨S1700000, .f32⟩ : BufTy).Contents (Elt F) → (⟨S1700000x1, .f32⟩ : BufTy).Contents (Elt F)),
    nullary main_c_7 (constantI S_ 32 0#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v36 (broadcastInDim S1700000 ![] bcast_S_S1700000 : (⟨S_, .i32⟩ : BufTy).Contents (Elt F) → (⟨S1700000, .i32⟩ : BufTy).Contents (Elt F)),
    binary main_v3 main_v36 main_v37 (addi : (⟨S1700000, .i32⟩ : BufTy).Contents (Elt F) → (⟨S1700000, .i32⟩ : BufTy).Contents (Elt F) → (⟨S1700000, .i32⟩ : BufTy).Contents (Elt F)),
    ternary main_v35 main_v37 main_v3 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v38 main_v39 (broadcastInDim S1700000x1 ![0] bcast_S1700000_S1700000x1_0 : (⟨S1700000, .i32⟩ : BufTy).Contents (Elt F) → (⟨S1700000x1, .i32⟩ : BufTy).Contents (Elt F)),
    binary main_v32 main_v39 main_v40 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v33 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v41 main_v40 main_v42 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The first bias, the clamp at zero, the second product (seven operations). -/
abbrev opsLayer2 : List (HloOp τ sig (Elt F)) :=
  [ unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf,
    binary main_v49 main_arg4 main_v50 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)) ]

/-- The second product's propagation along the edges (sixteen operations). -/
abbrev opsSpread2 : List (HloOp τ sig (Elt F)) :=
  [ unary main_v31 main_v51 (broadcastInDim S1700000x1 ![0] bcast_S1700000_S1700000x1_0 : (⟨S1700000, .f32⟩ : BufTy).Contents (Elt F) → (⟨S1700000x1, .f32⟩ : BufTy).Contents (Elt F)),
    nullary main_c_10 (constantI S_ 32 0#32),
    unary main_c_10 main_v52 (broadcastInDim S1700000 ![] bcast_S_S1700000 : (⟨S_, .i32⟩ : BufTy).Contents (Elt F) → (⟨S1700000, .i32⟩ : BufTy).Contents (Elt F)),
    binary main_v3 main_v52 main_v53 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v54 (broadcastInDim S1700000 ![] bcast_S_S1700000 : (⟨S_, .i32⟩ : BufTy).Contents (Elt F) → (⟨S1700000, .i32⟩ : BufTy).Contents (Elt F)),
    binary main_v3 main_v54 main_v55 (addi : (⟨S1700000, .i32⟩ : BufTy).Contents (Elt F) → (⟨S1700000, .i32⟩ : BufTy).Contents (Elt F) → (⟨S1700000, .i32⟩ : BufTy).Contents (Elt F)),
    ternary main_v53 main_v55 main_v3 main_v56 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v56 main_v57 (broadcastInDim S1700000x1 ![0] bcast_S1700000_S1700000x1_0 : (⟨S1700000, .i32⟩ : BufTy).Contents (Elt F) → (⟨S1700000x1, .i32⟩ : BufTy).Contents (Elt F)),
    binary main_v50 main_v57 main_v58 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v51 main_v59 (broadcastInDim S1700000x16 ![0, 1] bcast_S1700000x1_S1700000x16_0_1 : (⟨S1700000x1, .f32⟩ : BufTy).Contents (Elt F) → (⟨S1700000x16, .f32⟩ : BufTy).Contents (Elt F)),
    binary main_v59 main_v58 main_v60 (mulf : (⟨S1700000x16, .f32⟩ : BufTy).Contents (Elt F) → (⟨S1700000x16, .f32⟩ : BufTy).Contents (Elt F) → (⟨S1700000x16, .f32⟩ : BufTy).Contents (Elt F)),
    nullary main_cst_12 (constant S_ .f32 0x00000000#32),
    unary main_cst_12 main_v61 (broadcastInDim S100000x16 ![] bcast_S_S100000x16 : (⟨S_, .f32⟩ : BufTy).Contents (Elt F) → (⟨S100000x16, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)) ]

/-- The second bias added (three operations). -/
abbrev opsBias2 : List (HloOp τ sig (Elt F)) :=
  [ unary main_arg5 main_v64 (broadcastInDim S1x16 ![1] bcast_S16_S1x16_1 : (⟨S16, .f32⟩ : BufTy).Contents (Elt F) → (⟨S1x16, .f32⟩ : BufTy).Contents (Elt F)),
    unary main_v64 main_v65 (broadcastInDim S100000x16 ![0, 1] bcast_S1x16_S100000x16_0_1 : (⟨S1x16, .f32⟩ : BufTy).Contents (Elt F) → (⟨S100000x16, .f32⟩ : BufTy).Contents (Elt F)),
    binary main_v63 main_v65 main_v66 (addf : (⟨S100000x16, .f32⟩ : BufTy).Contents (Elt F) → (⟨S100000x16, .f32⟩ : BufTy).Contents (Elt F) → (⟨S100000x16, .f32⟩ : BufTy).Contents (Elt F)) ]

/-- The row maxima (five operations). -/
abbrev opsRowMax : List (HloOp τ sig (Elt F)) :=
  [ TRef.nullary (TRef.of (T := ⟨S_, .f32⟩) main_call2_cst) (constant S_ .f32 0xFF800000#32),
    TRef.binary (TRef.of (T := ⟨S100000x16, .f32⟩) main_v66) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]

/-- The row maxima subtracted (three operations). -/
abbrev opsShift : List (HloOp τ sig (Elt F)) :=
  [ TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v66) (TRef.of (T := ⟨S100000x16, .f32⟩) main_call2_v4) (TRef.of (T := ⟨S100000x16, .f32⟩) main_call2_v5) subf ]

/-- The logarithms of the rows' sums of exponentials (five operations). -/
abbrev opsLogSum : List (HloOp τ sig (Elt F)) :=
  [ TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log ]

/-- The logarithms subtracted (two operations). -/
abbrev opsNormalize : List (HloOp τ sig (Elt F)) :=
  [ TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v67) subf ]

/-- The second bias and the row-wise log-softmax (eighteen operations). -/
abbrev opsClosing : List (HloOp τ sig (Elt F)) :=
  opsBias2 ++ (opsRowMax ++ (opsShift ++ (opsLogSum ++ opsNormalize)))

set_option maxRecDepth 65536 in
theorem ops_split : (ops : List (HloOp τ sig (Elt F))) = opsIdx ++ (opsDeg ++ (opsLayer1 ++ (opsLayer2 ++ (opsSpread2 ++ opsClosing)))) := rfl

/-- The row-wise log-softmax, as the host spells it. -/
def logSoftmaxHost (z : FVec F S100000x16 .f32) : FVec F S100000x16 .f32 :=
  subf (subf z (broadcastInDim S100000x16 ![0, 1] bcast_S100000x1_S100000x16_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x16_S100000_d1 h_S_))))) (broadcastInDim S100000x16 ![0, 1] bcast_S100000x1_S100000x16_0_1 (Host.log (broadcastInDim S100000x1 ![0] bcast_S100000_S100000x1_0 (Host.reduceAdd (Host.exp (subf z (broadcastInDim S100000x16 ![0, 1] bcast_S100000x1_S100000x16_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x16_S100000_d1 h_S_)))))) (constant S_ .f32 0x00000000#32) reducesTo_S100000x16_S100000_d1 h_S_))))

variable (V : Valuation τ sig (Elt F))

theorem idx_rows : after opsIdx V (Proc.devRef .tc main_v3) = rows (V (Proc.devRef .tc main_arg1)) := by
  after_results; rfl

theorem idx_cols : after opsIdx V (Proc.devRef .tc main_v6) = cols (V (Proc.devRef .tc main_arg1)) := by
  after_results; rfl

theorem idx_main_arg0 : after opsIdx V (Proc.devRef .tc main_arg0) = V (Proc.devRef .tc main_arg0) := by
  after_results_simp

theorem idx_main_arg2 : after opsIdx V (Proc.devRef .tc main_arg2) = V (Proc.devRef .tc main_arg2) := by
  after_results_simp

theorem idx_main_arg3 : after opsIdx V (Proc.devRef .tc main_arg3) = V (Proc.devRef .tc main_arg3) := by
  after_results_simp

theorem idx_main_arg4 : after opsIdx V (Proc.devRef .tc main_arg4) = V (Proc.devRef .tc main_arg4) := by
  after_results_simp

theorem idx_main_arg5 : after opsIdx V (Proc.devRef .tc main_arg5) = V (Proc.devRef .tc main_arg5) := by
  after_results_simp

theorem deg_norm : after opsDeg V (Proc.devRef .tc main_v31)
    = norm (V (Proc.devRef .tc main_v3)) (V (Proc.devRef .tc main_v6)) := by
  after_results_simp; rfl

theorem deg_main_v3 : after opsDeg V (Proc.devRef .tc main_v3) = V (Proc.devRef .tc main_v3) := by
  after_results_simp

theorem deg_main_v6 : after opsDeg V (Proc.devRef .tc main_v6) = V (Proc.devRef .tc main_v6) := by
  after_results_simp

theorem deg_main_arg0 : after opsDeg V (Proc.devRef .tc main_arg0) = V (Proc.devRef .tc main_arg0) := by
  after_results_simp

theorem deg_main_arg2 : after opsDeg V (Proc.devRef .tc main_arg2) = V (Proc.devRef .tc main_arg2) := by
  after_results_simp

theorem deg_main_arg3 : after opsDeg V (Proc.devRef .tc main_arg3) = V (Proc.devRef .tc main_arg3) := by
  after_results_simp

theorem deg_main_arg4 : after opsDeg V (Proc.devRef .tc main_arg4) = V (Proc.devRef .tc main_arg4) := by
  after_results_simp

theorem deg_main_arg5 : after opsDeg V (Proc.devRef .tc main_arg5) = V (Proc.devRef .tc main_arg5) := by
  after_results_simp

/-! ## The layers, one stretch at a time -/

theorem layer1_aggregate : after opsLayer1 V (Proc.devRef .tc main_v45)
    = spread64 (V (Proc.devRef .tc main_v3)) (V (Proc.devRef .tc main_v6)) (V (Proc.devRef .tc main_v31)) (Host.dotGeneral dot_S100000x128_S128x64_S100000x64_1_0_0_1_n_n none (V (Proc.devRef .tc main_arg0)) (V (Proc.devRef .tc main_arg2))) := by
  after_results_simp; rfl

theorem layer1_main_v3 : after opsLayer1 V (Proc.devRef .tc main_v3) = V (Proc.devRef .tc main_v3) := by
  after_results_simp

theorem layer1_main_v6 : after opsLayer1 V (Proc.devRef .tc main_v6) = V (Proc.devRef .tc main_v6) := by
  after_results_simp

theorem layer1_main_v31 : after opsLayer1 V (Proc.devRef .tc main_v31) = V (Proc.devRef .tc main_v31) := by
  after_results_simp

theorem layer1_main_arg3 : after opsLayer1 V (Proc.devRef .tc main_arg3) = V (Proc.devRef .tc main_arg3) := by
  after_results_simp

theorem layer1_main_arg4 : after opsLayer1 V (Proc.devRef .tc main_arg4) = V (Proc.devRef .tc main_arg4) := by
  after_results_simp

theorem layer1_main_arg5 : after opsLayer1 V (Proc.devRef .tc main_arg5) = V (Proc.devRef .tc main_arg5) := by
  after_results_simp

theorem layer2_product : after opsLayer2 V (Proc.devRef .tc main_v50)
    = (Host.dotGeneral dot_S100000x64_S64x16_S100000x16_1_0_0_1_n_n none (maximumf (addf (V (Proc.devRef .tc main_v45)) (broadcastInDim S100000x64 ![0, 1] bcast_S1x64_S100000x64_0_1 (broadcastInDim S1x64 ![1] bcast_S64_S1x64_1 (V (Proc.devRef .tc main_arg3))))) (broadcastInDim S100000x64 ![] bcast_S_S100000x64 (constant S_ .f32 0x00000000#32))) (V (Proc.devRef .tc main_arg4))) := by
  after_results_simp; rfl

theorem layer2_main_v3 : after opsLayer2 V (Proc.devRef .tc main_v3) = V (Proc.devRef .tc main_v3) := by
  after_results_simp

theorem layer2_main_v6 : after opsLayer2 V (Proc.devRef .tc main_v6) = V (Proc.devRef .tc main_v6) := by
  after_results_simp

theorem layer2_main_v31 : after opsLayer2 V (Proc.devRef .tc main_v31) = V (Proc.devRef .tc main_v31) := by
  after_results_simp

theorem layer2_main_arg5 : after opsLayer2 V (Proc.devRef .tc main_arg5) = V (Proc.devRef .tc main_arg5) := by
  after_results_simp

theorem spread2_aggregate : after opsSpread2 V (Proc.devRef .tc main_v63)
    = spread16 (V (Proc.devRef .tc main_v3)) (V (Proc.devRef .tc main_v6)) (V (Proc.devRef .tc main_v31)) (V (Proc.devRef .tc main_v50)) := by
  after_results_simp; rfl

theorem spread2_main_arg5 : after opsSpread2 V (Proc.devRef .tc main_arg5) = V (Proc.devRef .tc main_arg5) := by
  after_results_simp

theorem bias2_sum : after opsBias2 V (Proc.devRef .tc main_v66)
    = addf (V (Proc.devRef .tc main_v63)) (broadcastInDim S100000x16 ![0, 1] bcast_S1x16_S100000x16_0_1 (broadcastInDim S1x16 ![1] bcast_S16_S1x16_1 (V (Proc.devRef .tc main_arg5)))) := by
  after_results_simp

theorem rowMax_value : after opsRowMax V (Proc.devRef .tc main_call2_v2)
    = (maximumf (broadcastInDim S100000 ![] bcast_S_S100000 (constant S_ .f32 0xFF800000#32)) (Host.reduce FloatOps.maximumf (V (Proc.devRef .tc main_v66)) (constant S_ .f32 0xFF800000#32) reducesTo_S100000x16_S100000_d1 h_S_)) := by
  after_results_simp
  have h_main_v66 : (TRef.of (T := ⟨S100000x16, .f32⟩) main_v66).ofBuf (V (Proc.devRef .tc main_v66)) = V (Proc.devRef .tc main_v66) :=
    eq_of_heq (cast_heq _ _)
  rw [h_main_v66]
  simp only [ofBuf_toBuf]
  refine (eq_of_heq (cast_heq _ _)).trans ?_
  rfl

theorem rowMax_main_v66 : after opsRowMax V (Proc.devRef .tc main_v66) = V (Proc.devRef .tc main_v66) := by
  after_results_simp

theorem shift_value : after opsShift V (Proc.devRef .tc main_call2_v5)
    = subf (V (Proc.devRef .tc main_v66)) (broadcastInDim S100000x16 ![0, 1] bcast_S100000x1_S100000x16_0_1 (broadcastInDim S100000x1 ![0] bcast_S100000_S100000x1_0 (V (Proc.devRef .tc main_call2_v2)))) := by
  after_results_simp
  have h_main_v66 : (TRef.of (T := ⟨S100000x16, .f32⟩) main_v66).ofBuf (V (Proc.devRef .tc main_v66)) = V (Proc.devRef .tc main_v66) :=
    eq_of_heq (cast_heq _ _)
  have h_main_call2_v2 : (TRef.of (T := ⟨S100000, .f32⟩) main_call2_v2).ofBuf (V (Proc.devRef .tc main_call2_v2)) = V (Proc.devRef .tc main_call2_v2) :=
    eq_of_heq (cast_heq _ _)
  rw [h_main_v66, h_main_call2_v2]
  simp only [ofBuf_toBuf]
  refine (eq_of_heq (cast_heq _ _)).trans ?_
  rfl

theorem logSum_value : after opsLogSum V (Proc.devRef .tc main_call2_v9)
    = (Host.log (broadcastInDim S100000x1 ![0] bcast_S100000_S100000x1_0 (Host.reduceAdd (Host.exp (V (Proc.devRef .tc main_call2_v5))) (constant S_ .f32 0x00000000#32) reducesTo_S100000x16_S100000_d1 h_S_))) := by
  after_results_simp
  have h_main_call2_v5 : (TRef.of (T := ⟨S100000x16, .f32⟩) main_call2_v5).ofBuf (V (Proc.devRef .tc main_call2_v5)) = V (Proc.devRef .tc main_call2_v5) :=
    eq_of_heq (cast_heq _ _)
  rw [h_main_call2_v5]
  simp only [ofBuf_toBuf]
  refine (eq_of_heq (cast_heq _ _)).trans ?_
  rfl

theorem logSum_main_call2_v5 : after opsLogSum V (Proc.devRef .tc main_call2_v5) = V (Proc.devRef .tc main_call2_v5) := by
  after_results_simp

theorem normalize_value : after opsNormalize V (Proc.devRef .tc main_v67)
    = subf (V (Proc.devRef .tc main_call2_v5)) (broadcastInDim S100000x16 ![0, 1] bcast_S100000x1_S100000x16_0_1 (V (Proc.devRef .tc main_call2_v9))) := by
  after_results_simp
  have h_main_call2_v5 : (TRef.of (T := ⟨S100000x16, .f32⟩) main_call2_v5).ofBuf (V (Proc.devRef .tc main_call2_v5)) = V (Proc.devRef .tc main_call2_v5) :=
    eq_of_heq (cast_heq _ _)
  have h_main_call2_v9 : (TRef.of (T := ⟨S100000x1, .f32⟩) main_call2_v9).ofBuf (V (Proc.devRef .tc main_call2_v9)) = V (Proc.devRef .tc main_call2_v9) :=
    eq_of_heq (cast_heq _ _)
  rw [h_main_call2_v5, h_main_call2_v9]
  simp only [ofBuf_toBuf]
  refine (eq_of_heq (cast_heq _ _)).trans ?_
  rfl

theorem closing_result : after opsClosing V (Proc.devRef .tc main_v67)
    = logSoftmaxHost (addf (V (Proc.devRef .tc main_v63)) (broadcastInDim S100000x16 ![0, 1] bcast_S1x16_S100000x16_0_1 (broadcastInDim S1x16 ![1] bcast_S16_S1x16_1 (V (Proc.devRef .tc main_arg5))))) := by
  show after (opsBias2 ++ (opsRowMax ++ (opsShift ++ (opsLogSum ++ opsNormalize)))) V _ = _
  rw [after_append, after_append, after_append, after_append, normalize_value, logSum_value, logSum_main_call2_v5,
    shift_value, rowMax_value, rowMax_main_v66, bias2_sum]
  rfl

/-- The result buffer after the whole program, from the launch contents. -/
theorem result_eq : after ops V (Proc.devRef .tc main_v67)
    = logSoftmaxHost (addf (spread16 (rows (V (Proc.devRef .tc main_arg1))) (cols (V (Proc.devRef .tc main_arg1))) (norm (rows (V (Proc.devRef .tc main_arg1))) (cols (V (Proc.devRef .tc main_arg1)))) (Host.dotGeneral dot_S100000x64_S64x16_S100000x16_1_0_0_1_n_n none (maximumf (addf (spread64 (rows (V (Proc.devRef .tc main_arg1))) (cols (V (Proc.devRef .tc main_arg1))) (norm (rows (V (Proc.devRef .tc main_arg1))) (cols (V (Proc.devRef .tc main_arg1)))) (Host.dotGeneral dot_S100000x128_S128x64_S100000x64_1_0_0_1_n_n none (V (Proc.devRef .tc main_arg0)) (V (Proc.devRef .tc main_arg2)))) (broadcastInDim S100000x64 ![0, 1] bcast_S1x64_S100000x64_0_1 (broadcastInDim S1x64 ![1] bcast_S64_S1x64_1 (V (Proc.devRef .tc main_arg3))))) (broadcastInDim S100000x64 ![] bcast_S_S100000x64 (constant S_ .f32 0x00000000#32))) (V (Proc.devRef .tc main_arg4)))) (broadcastInDim S100000x16 ![0, 1] bcast_S1x16_S100000x16_0_1 (broadcastInDim S1x16 ![1] bcast_S16_S1x16_1 (V (Proc.devRef .tc main_arg5))))) := by
  rw [ops_split, after_append, after_append, after_append, after_append, after_append, closing_result, spread2_aggregate,
    spread2_main_arg5, layer2_product, layer2_main_v3, layer2_main_v6, layer2_main_v31, layer2_main_arg5, layer1_aggregate,
    layer1_main_v3, layer1_main_v6, layer1_main_v31, layer1_main_arg3, layer1_main_arg4, layer1_main_arg5, deg_norm, deg_main_v3, deg_main_v6, deg_main_arg0, deg_main_arg2,
    deg_main_arg3, deg_main_arg4, deg_main_arg5, idx_rows, idx_cols, idx_main_arg0, idx_main_arg2, idx_main_arg3, idx_main_arg4,
    idx_main_arg5]

theorem kept_main_arg0 : after ops V (Proc.devRef .tc main_arg0) = V (Proc.devRef .tc main_arg0) := by
  after_results_simp

theorem kept_main_arg1 : after ops V (Proc.devRef .tc main_arg1) = V (Proc.devRef .tc main_arg1) := by
  after_results_simp

theorem kept_main_arg2 : after ops V (Proc.devRef .tc main_arg2) = V (Proc.devRef .tc main_arg2) := by
  after_results_simp

theorem kept_main_arg3 : after ops V (Proc.devRef .tc main_arg3) = V (Proc.devRef .tc main_arg3) := by
  after_results_simp

theorem kept_main_arg4 : after ops V (Proc.devRef .tc main_arg4) = V (Proc.devRef .tc main_arg4) := by
  after_results_simp

theorem kept_main_arg5 : after ops V (Proc.devRef .tc main_arg5) = V (Proc.devRef .tc main_arg5) := by
  after_results_simp

end Cert.ReferenceIdeal.Graph

end
-- ==== Proof.Bridge.lean ====
/-
  The reference's dense stages are the specification's. On the extended reals the host's plain product is the sum over
  the contracted coordinate; a bias vector laid out as a row and repeated down the rows reads, at (r, e), the vector's
  entry e, exactly as the kernel's reshaped bias row does at (0, e); a maximum with the broadcast zero is a clamp at
  zero; and the host's row-wise log-softmax — the row maximum joined once more with minus infinity, which changes
  nothing — is the same row function as the kernel's. Hence the host's three dense stages are `product`, `hiddenLayer`
  and `logSoftmax`.
-/
import proofs.«133466_j38938173505764_1_alg».proof.Proof.ReferenceHost
import proofs.«133466_j38938173505764_1_alg».proof.Proof.Spec
import proofs.«133466_j38938173505764_1_alg».proof.Proof.LibRowMax
import proofs.«133466_j38938173505764_1_alg».proof.Proof.LibLogSoftmax
import Idealize.ShloMosaic.Lib.ValueLayout
import Idealize.ShloMosaic.Lib.Pipeline.Value

set_option maxRecDepth 16384

noncomputable section

namespace Cert.ReferenceIdeal.Graph

open Cert.ReferenceIdeal Cert.ReferenceIdeal.Gen Cert.Spec Idealize.ShloMosaic Idealize.ShloMosaic.ValueIdx

/-- The host's first product. -/
theorem product_eq (x : FVec Ideal S100000x128 .f32) (w : FVec Ideal S128x64 .f32) :
    (Host.dotGeneral dot_S100000x128_S128x64_S100000x64_1_0_0_1_n_n none x w) = product (a := 100000) (k := 128) (b := 64) x w := by
  funext i
  obtain ⟨p, q, rfl⟩ : ∃ (p : Fin 100000) (q : Fin 64), i = ix2 p q := ⟨i 0, i 1, eq_ix2 i⟩
  exact Cert.LibRowMax.dotGeneral_plain_apply _ none _ x w p q

/-- A bias vector as a row repeated down the rows reads the vector's entry at the column. -/
theorem bias64_apply (b1 : FVec Ideal S64 .f32) (p : Fin 100000) (e : Fin 64) :
    (broadcastInDim S100000x64 ![0, 1] bcast_S1x64_S100000x64_0_1 (broadcastInDim S1x64 ![1] bcast_S64_S1x64_1 b1)) (ix2 p e) = b1 (ix1 e) :=
  (Cert.LibRowMax.broadcastInDim_1b_ab_apply _ bcast_S1x64_S100000x64_0_1 p e).trans
    (Cert.LibRowMax.broadcastInDim_b_1b_apply b1 bcast_S64_S1x64_1 0 e)

theorem bias16_apply (b2 : FVec Ideal S16 .f32) (p : Fin 100000) (e : Fin 16) :
    (broadcastInDim S100000x16 ![0, 1] bcast_S1x16_S100000x16_0_1 (broadcastInDim S1x16 ![1] bcast_S16_S1x16_1 b2)) (ix2 p e) = b2 (ix1 e) :=
  (Cert.LibRowMax.broadcastInDim_1b_ab_apply _ bcast_S1x16_S100000x16_0_1 p e).trans
    (Cert.LibRowMax.broadcastInDim_b_1b_apply b2 bcast_S16_S1x16_1 0 e)

/-- The host's bias, clamp at zero and second product. -/
theorem hiddenLayer_eq (agg : FVec Ideal S100000x64 .f32) (b1 : FVec Ideal S64 .f32) (w : FVec Ideal S64x16 .f32)
    (h : S64.ShapeCasts S1x64) :
    (Host.dotGeneral dot_S100000x64_S64x16_S100000x16_1_0_0_1_n_n none (maximumf (addf agg (broadcastInDim S100000x64 ![0, 1] bcast_S1x64_S100000x64_0_1 (broadcastInDim S1x64 ![1] bcast_S64_S1x64_1 b1))) (broadcastInDim S100000x64 ![] bcast_S_S100000x64 (constant S_ .f32 0x00000000#32))) w)
      = hiddenLayer (a := 100000) (k := 64) (b := 16) agg (shapeCast S1x64 b1 h) w := by
  funext i
  obtain ⟨p, q, rfl⟩ : ∃ (p : Fin 100000) (q : Fin 16), i = ix2 p q := ⟨i 0, i 1, eq_ix2 i⟩
  refine (Cert.LibRowMax.dotGeneral_plain_apply _ none _ _ w p q).trans ?_
  refine Finset.sum_congr rfl fun e _ => ?_
  show max (agg (ix2 p e) + (broadcastInDim S100000x64 ![0, 1] bcast_S1x64_S100000x64_0_1 (broadcastInDim S1x64 ![1] bcast_S64_S1x64_1 b1)) (ix2 p e))
      ((broadcastInDim S100000x64 ![] bcast_S_S100000x64 (constant S_ .f32 0x00000000#32)) (ix2 p e)) * w (ix2 e q)
    = max (agg (ix2 p e) + shapeCast S1x64 b1 h (ix2 (0 : Fin 1) e)) (Ideal.ofBits .f32 0x00000000#32) * w (ix2 e q)
  rw [bias64_apply, shapeCast_a_1a_apply, broadcastInDim_apply _ bcast_S_S100000x64 _ (ix2 p e) ix0 (fun ax => ax.elim0)]
  rfl

/-- The host's bias and row-wise log-softmax. -/
theorem logSoftmax_eq (z : FVec Ideal S100000x16 .f32) (b2 : FVec Ideal S16 .f32) (h : S16.ShapeCasts S1x16) :
    logSoftmaxHost (F := Ideal) (addf z (broadcastInDim S100000x16 ![0, 1] bcast_S1x16_S100000x16_0_1 (broadcastInDim S1x16 ![1] bcast_S16_S1x16_1 b2)))
      = logSoftmax (a := 100000) (b := 16) z (shapeCast S1x16 b2 h) := by
  funext i
  obtain ⟨p, q, rfl⟩ : ∃ (p : Fin 100000) (q : Fin 16), i = ix2 p q := ⟨i 0, i 1, eq_ix2 i⟩
  have hz : ∀ d : Fin 16, addf (F := Ideal) (φ := .f32) z (broadcastInDim S100000x16 ![0, 1] bcast_S1x16_S100000x16_0_1 (broadcastInDim S1x16 ![1] bcast_S16_S1x16_1 b2)) (ix2 p d)
      = z (ix2 p d) + shapeCast S1x16 b2 h (ix2 (0 : Fin 1) d) := fun d => by
    show z (ix2 p d) + (broadcastInDim S100000x16 ![0, 1] bcast_S1x16_S100000x16_0_1 (broadcastInDim S1x16 ![1] bcast_S16_S1x16_1 b2)) (ix2 p d) = _
    rw [bias16_apply, shapeCast_a_1a_apply]
  have hr : S100000x16.Reduces [1] S100000 := by decide
  have key := Cert.LibLogSoftmax.host_apply (a := 100000) (b := 16) (addf (F := Ideal) (φ := .f32) z (broadcastInDim S100000x16 ![0, 1] bcast_S1x16_S100000x16_0_1 (broadcastInDim S1x16 ![1] bcast_S16_S1x16_1 b2)))
    reducesTo_S100000x16_S100000_d1 hr h_S_ bcast_S_S100000 bcast_S100000_S100000x1_0
    bcast_S100000x1_S100000x16_0_1 p q
  unfold logSoftmaxHost
  refine key.trans ?_
  exact lsRow_congr (b := 16) (fun d : Fin 16 => addf (F := Ideal) (φ := .f32) z (broadcastInDim S100000x16 ![0, 1] bcast_S1x16_S100000x16_0_1 (broadcastInDim S1x16 ![1] bcast_S16_S1x16_1 b2)) (ix2 p d))
    (fun d : Fin 16 => z (ix2 p d) + shapeCast S1x16 b2 h (ix2 (0 : Fin 1) d)) q q hz rfl

end Cert.ReferenceIdeal.Graph

end
-- ==== Proof.Across.lean ====
/-
  The kernel's host stretches and the reference's spell the sparse half of the convolution with the same operations
  over the same shapes: the two programs' edge lists, normalizations and propagations are the same functions.
-/
import proofs.«133466_j38938173505764_1_alg».proof.Proof.KernelGraph
import proofs.«133466_j38938173505764_1_alg».proof.Proof.ReferenceGraph

set_option maxRecDepth 16384

noncomputable section

namespace Cert.Across

open Idealize.ShloMosaic

variable {F : FTy → Type} [FloatOps F]

theorem rows_eq (e : IVec Cert.KernelIdeal.S2x1600000 32) :
    Cert.KernelIdeal.Graph.rows e = Cert.ReferenceIdeal.Graph.rows e := rfl

theorem cols_eq (e : IVec Cert.KernelIdeal.S2x1600000 32) :
    Cert.KernelIdeal.Graph.cols e = Cert.ReferenceIdeal.Graph.cols e := rfl

theorem norm_eq (r c : IVec Cert.KernelIdeal.S1700000 32) :
    Cert.KernelIdeal.Graph.norm (F := F) r c = Cert.ReferenceIdeal.Graph.norm (F := F) r c := rfl

theorem spread64_eq (r c : IVec Cert.KernelIdeal.S1700000 32) (n : FVec F Cert.KernelIdeal.S1700000 .f32)
    (xw : FVec F Cert.KernelIdeal.S100000x64 .f32) :
    Cert.KernelIdeal.Graph.spread64 r c n xw = Cert.ReferenceIdeal.Graph.spread64 r c n xw := rfl

theorem spread16_eq (r c : IVec Cert.KernelIdeal.S1700000 32) (n : FVec F Cert.KernelIdeal.S1700000 .f32)
    (xw : FVec F Cert.KernelIdeal.S100000x16 .f32) :
    Cert.KernelIdeal.Graph.spread16 r c n xw = Cert.ReferenceIdeal.Graph.spread16 r c n xw := rfl

end Cert.Across

end
-- ==== Proof.lean ====
/-
  A two-layer graph convolution — features times weights, propagated along the normalized edges with self loops, a
  bias and a clamp at zero, a second product, a second propagation, a second bias, and a row-wise log-softmax — computed
  by three row-tiled kernels with the sparse propagation left to the host, against the same network written in plain
  array operations.

  On the extended reals the two programs are one function of the six arguments. The sparse half (the edge list with
  self loops, the normalization of each edge by its end points' degrees, the gather–scale–scatter-add along the edges)
  is spelt by the same host operations in both. Each product kernel leaves, row block by row block, the plain sum over
  the contracted coordinate, which is what the host's product is; the bias is read as one row in the kernel and as a
  row repeated down the matrix on the host, the same entry either way; the maximum with zero is the same clamp; and the
  log-softmax kernel treats every row by itself exactly as the host's does (whose extra join of the row maximum with
  minus infinity changes nothing). No law of arithmetic beyond reading sums and folds index by index is used, so the
  finiteness of the inputs is never opened.

  The word-level kernel and its idealization differ by no rewrite, so the idealization claim is trivial; the three
  frames are the generated ones for the two kernels and the host run's for the reference.
-/
import proofs.«133466_j38938173505764_1_alg».proof.Defs
import proofs.«133466_j38938173505764_1_alg».proof.Proof.Gen.Kernel
import proofs.«133466_j38938173505764_1_alg».proof.Proof.Gen.Kernel.Skeleton
import proofs.«133466_j38938173505764_1_alg».proof.Proof.Gen.Kernel.Launch
import proofs.«133466_j38938173505764_1_alg».proof.Proof.Gen.Kernel.Points
import proofs.«133466_j38938173505764_1_alg».proof.Proof.Gen.Kernel.Frame
import proofs.«133466_j38938173505764_1_alg».proof.Proof.Gen.KernelIdeal
import proofs.«133466_j38938173505764_1_alg».proof.Proof.Gen.KernelIdeal.Skeleton
import proofs.«133466_j38938173505764_1_alg».proof.Proof.Gen.KernelIdeal.Launch
import proofs.«133466_j38938173505764_1_alg».proof.Proof.Gen.KernelIdeal.Points
import proofs.«133466_j38938173505764_1_alg».proof.Proof.Gen.KernelIdeal.Frame
import proofs.«133466_j38938173505764_1_alg».proof.Proof.Gen.ReferenceIdeal
import proofs.«133466_j38938173505764_1_alg».proof.Proof.Gen.Pre_finite_inputs
import proofs.«133466_j38938173505764_1_alg».proof.Proof.KernelValue
import proofs.«133466_j38938173505764_1_alg».proof.Proof.ReferenceHost
import proofs.«133466_j38938173505764_1_alg».proof.Proof.Bridge
import proofs.«133466_j38938173505764_1_alg».proof.Proof.Across
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The reference's run: every buffer ends at the fold of its operations over the launch contents. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ (d : Dev Cert.ReferenceIdeal.nD) (b : Ref Cert.ReferenceIdeal.sig .tc),
        r.2.mem ((d.tc : Thread Cert.ReferenceIdeal.nD Cert.ReferenceIdeal.τ).loc b)
          = after Cert.ReferenceIdeal.ValueP.ops (launchContents m d) (Proc.devRef .tc b)) :=
  run_seq Cert.ReferenceIdeal.ValueP.scopedRefs_eq Cert.ReferenceIdeal.ValueP.scopedSems_eq
    (Cert.ReferenceIdeal.defs (F := Ideal)) (Cert.ReferenceIdeal.main (F := Ideal))
    (fun _ => Cert.ReferenceIdeal.ValueP.ops) Cert.ReferenceIdeal.ValueP.main_eq (fun _ => Cert.ReferenceIdeal.ValueP.ops_sub) m ρ

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c =>
    ⟨(h c Cert.ReferenceIdeal.main_arg0).trans (Cert.ReferenceIdeal.Graph.kept_main_arg0 _),
     (h c Cert.ReferenceIdeal.main_arg1).trans (Cert.ReferenceIdeal.Graph.kept_main_arg1 _),
     (h c Cert.ReferenceIdeal.main_arg2).trans (Cert.ReferenceIdeal.Graph.kept_main_arg2 _),
     (h c Cert.ReferenceIdeal.main_arg3).trans (Cert.ReferenceIdeal.Graph.kept_main_arg3 _),
     (h c Cert.ReferenceIdeal.main_arg4).trans (Cert.ReferenceIdeal.Graph.kept_main_arg4 _),
     (h c Cert.ReferenceIdeal.main_arg5).trans (Cert.ReferenceIdeal.Graph.kept_main_arg5 _)⟩)
    (reference_run m ρ)

/-- The reference's result, from arguments that agree with the kernel's, is the kernel's outcome. -/
theorem reference_value
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after Cert.ReferenceIdeal.ValueP.ops (launchContents m' c) (Proc.devRef .tc Cert.ReferenceIdeal.main_v67)
      = Cert.KernelIdeal.Named.outcome m c := by
  have e0 : launchContents m' c (Proc.devRef .tc Cert.ReferenceIdeal.main_arg0)
      = m ((c.tc : Thread Cert.KernelIdeal.nD Cert.KernelIdeal.τ).loc Cert.KernelIdeal.main_arg0) := h0
  have e1 : launchContents m' c (Proc.devRef .tc Cert.ReferenceIdeal.main_arg1)
      = m ((c.tc : Thread Cert.KernelIdeal.nD Cert.KernelIdeal.τ).loc Cert.KernelIdeal.main_arg1) := h1
  have e2 : launchContents m' c (Proc.devRef .tc Cert.ReferenceIdeal.main_arg2)
      = m ((c.tc : Thread Cert.KernelIdeal.nD Cert.KernelIdeal.τ).loc Cert.KernelIdeal.main_arg2) := h2
  have e3 : launchContents m' c (Proc.devRef .tc Cert.ReferenceIdeal.main_arg3)
      = m ((c.tc : Thread Cert.KernelIdeal.nD Cert.KernelIdeal.τ).loc Cert.KernelIdeal.main_arg3) := h3
  have e4 : launchContents m' c (Proc.devRef .tc Cert.ReferenceIdeal.main_arg4)
      = m ((c.tc : Thread Cert.KernelIdeal.nD Cert.KernelIdeal.τ).loc Cert.KernelIdeal.main_arg4) := h4
  have e5 : launchContents m' c (Proc.devRef .tc Cert.ReferenceIdeal.main_arg5)
      = m ((c.tc : Thread Cert.KernelIdeal.nD Cert.KernelIdeal.τ).loc Cert.KernelIdeal.main_arg5) := h5
  rw [Cert.ReferenceIdeal.Graph.result_eq, e0, e1, e2, e3, e4, e5, Cert.ReferenceIdeal.Graph.product_eq,
    Cert.ReferenceIdeal.Graph.hiddenLayer_eq _ _ _ Cert.KernelIdeal.Gen.shapeCasts_S64_S1x64,
    Cert.ReferenceIdeal.Graph.logSoftmax_eq _ _ Cert.KernelIdeal.Gen.shapeCasts_S16_S1x16]
  rfl

theorem preserves : Cert.preserves_Kernel_KernelIdeal := trivial

theorem algebraic : Cert.algebraic_KernelIdeal_ReferenceIdeal := by
  intro m ρ m' ρ' _ hagree
  refine ⟨fun c => Cert.KernelIdeal.Named.outcome m c, Cert.KernelIdeal.Named.valued m ρ, ?_⟩
  refine (θ_run Cert.ReferenceIdeal.defs _ _).mono (fun _ h c => ?_) (reference_run m' ρ')
  obtain ⟨h0, h1, h2, h3, h4, h5⟩ := hagree c
  exact ⟨(h c Cert.ReferenceIdeal.main_v67).trans (reference_value m m' c h0 h1 h2 h3 h4 h5),
     (h c Cert.ReferenceIdeal.main_arg0).trans (Cert.ReferenceIdeal.Graph.kept_main_arg0 _),
     (h c Cert.ReferenceIdeal.main_arg1).trans (Cert.ReferenceIdeal.Graph.kept_main_arg1 _),
     (h c Cert.ReferenceIdeal.main_arg2).trans (Cert.ReferenceIdeal.Graph.kept_main_arg2 _),
     (h c Cert.ReferenceIdeal.main_arg3).trans (Cert.ReferenceIdeal.Graph.kept_main_arg3 _),
     (h c Cert.ReferenceIdeal.main_arg4).trans (Cert.ReferenceIdeal.Graph.kept_main_arg4 _),
     (h c Cert.ReferenceIdeal.main_arg5).trans (Cert.ReferenceIdeal.Graph.kept_main_arg5 _)⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
